-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x1152 : Shape := ⟨3, ![64, 256, 1152]⟩
abbrev S64 : Shape := ⟨1, ![64]⟩
abbrev S32x1152 : Shape := ⟨2, ![32, 1152]⟩
abbrev S1000x1152x32 : Shape := ⟨3, ![1000, 1152, 32]⟩
abbrev S1000x32 : Shape := ⟨2, ![1000, 32]⟩
abbrev S_ : Shape := ⟨0, ![]⟩

class Facts : Prop where
  bcast_S_S64x256x1152 : S_.BroadcastsInDim S64x256x1152 (![] : Fin 0 → Fin S64x256x1152.rank)
  reducesTo_S64x256x1152_S_d0_1_2 : S64x256x1152.ReducesTo [0, 1, 2] S_
  h_S_ : 0 < S_.numel
  bcast_S_S32x1152 : S_.BroadcastsInDim S32x1152 (![] : Fin 0 → Fin S32x1152.rank)
  reducesTo_S32x1152_S_d0_1 : S32x1152.ReducesTo [0, 1] S_
  bcast_S_S1000x1152x32 : S_.BroadcastsInDim S1000x1152x32 (![] : Fin 0 → Fin S1000x1152x32.rank)
  reducesTo_S1000x1152x32_S_d0_1_2 : S1000x1152x32.ReducesTo [0, 1, 2] S_
  bcast_S_S1000x32 : S_.BroadcastsInDim S1000x32 (![] : Fin 0 → Fin S1000x32.rank)
  reducesTo_S1000x32_S_d0_1 : S1000x32.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S64 32) (main_v13 : IVec S_ 1) (main_v16 : IVec S1000x32 1) : IVec S_ 1 :=
  let main_c_5 : IVec S_ 1 := constantI S_ 1 1#1
  let main_v17 : IVec S_ 1 := (fun x v => Host.reduce IntOp.andi x v reducesTo_S1000x32_S_d0_1 h_S_) main_v16 main_c_5
  let main_v18 : IVec S_ 1 := andi main_v13 main_v17
  let main_c_6 : IVec S_ 32 := constantI S_ 32 0#32
  let main_v19 : IVec S64 32 := broadcastInDim S64 ![] bcast_S_S64 main_c_6
  let main_v20 : IVec S64 1 := cmpi .sge main_arg1 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v18 main_v21
  main_v22

def fn {F : FTy → Type} [FloatOps F] (main_arg0 : FVec F S64x256x1152 .f32) (main_arg1 : IVec S64 32) (main_arg2 : FVec F S32x1152 .f32) (main_arg3 : FVec F S1000x1152x32 .f32) (main_arg4 : FVec F S1000x32 .f32) : IVec S_ 1 :=
  let main_v0 : FVec F S64x256x1152 .f32 := Host.absf main_arg0
  let main_cst : FVec F S_ .f32 := constant S_ .f32 0x7F800000#32
  let main_v1 : FVec F S64x256x1152 .f32 := broadcastInDim S64x256x1152 ![] bcast_S_S64x256x1152 main_cst
  let main_v2 : IVec S64x256x1152 1 := cmpf .olt main_v0 main_v1
  let main_c : IVec S_ 1 := constantI S_ 1 1#1
  let main_v3 : IVec S_ 1 := (fun x v => Host.reduce IntOp.andi x v reducesTo_S64x256x1152_S_d0_1_2 h_S_) main_v2 main_c
  let main_v4 : FVec F S32x1152 .f32 := Host.absf main_arg2
  let main_cst_0 : FVec F S_ .f32 := constant S_ .f32 0x7F800000#32
  let main_v5 : FVec F S32x1152 .f32 := broadcastInDim S32x1152 ![] bcast_S_S32x1152 main_cst_0
  let main_v6 : IVec S32x1152 1 := cmpf .olt main_v4 main_v5
  let main_c_1 : IVec S_ 1 := constantI S_ 1 1#1
  let main_v7 : IVec S_ 1 := (fun x v => Host.reduce IntOp.andi x v reducesTo_S32x1152_S_d0_1 h_S_) main_v6 main_c_1
  let main_v8 : IVec S_ 1 := andi main_v3 main_v7
  let main_v9 : FVec F S1000x1152x32 .f32 := Host.absf main_arg3
  let main_cst_2 : FVec F S_ .f32 := constant S_ .f32 0x7F800000#32
  let main_v10 : FVec F S1000x1152x32 .f32 := broadcastInDim S1000x1152x32 ![] bcast_S_S1000x1152x32 main_cst_2
  let main_v11 : IVec S1000x1152x32 1 := cmpf .olt main_v9 main_v10
  let main_c_3 : IVec S_ 1 := constantI S_ 1 1#1
  let main_v12 : IVec S_ 1 := (fun x v => Host.reduce IntOp.andi x v reducesTo_S1000x1152x32_S_d0_1_2 h_S_) main_v11 main_c_3
  let main_v13 : IVec S_ 1 := andi main_v8 main_v12
  let main_v14 : FVec F S1000x32 .f32 := Host.absf main_arg4
  let main_cst_4 : FVec F S_ .f32 := constant S_ .f32 0x7F800000#32
  let main_v15 : FVec F S1000x32 .f32 := broadcastInDim S1000x32 ![] bcast_S_S1000x32 main_cst_4
  let main_v16 : IVec S1000x32 1 := cmpf .olt main_v14 main_v15
  fn_part1 (F := F) main_arg1 main_v13 main_v16
-- ==== Kernel.lean ====
abbrev S64x256x1152 : Shape := ⟨3, ![64, 256, 1152]⟩
abbrev S64 : Shape := ⟨1, ![64]⟩
abbrev S32x1152 : Shape := ⟨2, ![32, 1152]⟩
abbrev S1000x1152x32 : Shape := ⟨3, ![1000, 1152, 32]⟩
abbrev S1000x32 : Shape := ⟨2, ![1000, 32]⟩
abbrev S_ : Shape := ⟨0, ![]⟩
abbrev S1152x32 : Shape := ⟨2, ![1152, 32]⟩
abbrev S1000x1x32 : Shape := ⟨3, ![1000, 1, 32]⟩
abbrev S64x256x128 : Shape := ⟨3, ![64, 256, 128]⟩
abbrev S2x256x1152 : Shape := ⟨3, ![2, 256, 1152]⟩
abbrev S1x1152x32 : Shape := ⟨3, ![1, 1152, 32]⟩
abbrev S1 : Shape := ⟨1, ![1]⟩
abbrev S1x1x32 : Shape := ⟨3, ![1, 1, 32]⟩
abbrev S2x256x128 : Shape := ⟨3, ![2, 256, 128]⟩
abbrev S256x64 : Shape := ⟨2, ![256, 64]⟩
abbrev S1x256x1152 : Shape := ⟨3, ![1, 256, 1152]⟩
abbrev S256x1152 : Shape := ⟨2, ![256, 1152]⟩
abbrev S1152x64 : Shape := ⟨2, ![1152, 64]⟩
abbrev S1x32 : Shape := ⟨2, ![1, 32]⟩
abbrev S1x64 : Shape := ⟨2, ![1, 64]⟩
abbrev S256x128 : Shape := ⟨2, ![256, 128]⟩
abbrev S1x256x128 : Shape := ⟨3, ![1, 256, 128]⟩
abbrev S64x256x32 : Shape := ⟨3, ![64, 256, 32]⟩

abbrev nBuf : Space → Nat
  | .hbm => 17
  | .vmem => 13
  | .smem => 1
  | _ => 0

abbrev bufTy : (tb : Table) → Fin (tcTables nBuf tb) → BufTy
  | .hbm, ⟨0, _⟩ => ⟨S64x256x1152, .f32⟩
  | .hbm, ⟨1, _⟩ => ⟨S64, .i32⟩
  | .hbm, ⟨2, _⟩ => ⟨S32x1152, .f32⟩
  | .hbm, ⟨3, _⟩ => ⟨S1000x1152x32, .f32⟩
  | .hbm, ⟨4, _⟩ => ⟨S1000x32, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S1152x32, .f32⟩
  | .hbm, ⟨13, _⟩ => ⟨S1000x1x32, .f32⟩
  | .hbm, ⟨14, _⟩ => ⟨S64x256x128, .f32⟩
  | .hbm, ⟨15, _⟩ => ⟨S64x256x32, .f32⟩
  | .hbm, ⟨16, _⟩ => ⟨S64x256x32, .f32⟩
  | .local _ .vmem, ⟨0, _⟩ => ⟨S2x256x1152, .f32⟩
  | .local _ .vmem, ⟨1, _⟩ => ⟨S2x256x1152, .f32⟩
  | .local _ .vmem, ⟨2, _⟩ => ⟨S1152x32, .f32⟩
  | .local _ .vmem, ⟨3, _⟩ => ⟨S1x1152x32, .f32⟩
  | .local _ .vmem, ⟨4, _⟩ => ⟨S1x1152x32, .f32⟩
  | .local _ .vmem, ⟨5, _⟩ => ⟨S1x1152x32, .f32⟩
  | .local _ .vmem, ⟨6, _⟩ => ⟨S1x1152x32, .f32⟩
  | .local _ .vmem, ⟨7, _⟩ => ⟨S1x1x32, .f32⟩
  | .local _ .vmem, ⟨8, _⟩ => ⟨S1x1x32, .f32⟩
  | .local _ .vmem, ⟨9, _⟩ => ⟨S1x1x32, .f32⟩
  | .local _ .vmem, ⟨10, _⟩ => ⟨S1x1x32, .f32⟩
  | .local _ .vmem, ⟨11, _⟩ => ⟨S2x256x128, .f32⟩
  | .local _ .vmem, ⟨12, _⟩ => ⟨S2x256x128, .f32⟩
  | .local _ .smem, ⟨0, _⟩ => ⟨S64, .i32⟩
  | _, _ => ⟨S64x256x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c2_i32 : BitVec 32 := 2#32
  let arg0 : BitVec 32 := BitVec.ofNat 32 (i 0).val
  let v0 : BitVec 32 := Scalar.muli c2_i32 arg0
  let v1 : Index := Scalar.indexCast v0
  ![v1.toNat]
def k0_off2 (i : grid0.Coords) : Fin 1 → Nat :=
  let c2_i32 : BitVec 32 := 2#32
  let arg0 : BitVec 32 := BitVec.ofNat 32 (i 0).val
  let v0 : BitVec 32 := Scalar.muli c2_i32 arg0
  let c1_i32 : BitVec 32 := 1#32
  let v1 : BitVec 32 := Scalar.addi v0 c1_i32
  let v2 : Index := Scalar.indexCast v1
  ![v2.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S64) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_3 (k0_off2_inb : ∀ i : grid0.Coords, ∀ a, (k0_off2 i) a + S1.size a ≤ S64.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S64) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let v1 : Index := Scalar.indexCast v0
  let v2 : BitVec 32 := pf.at 0 (Rect.unit (s := S64) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_5 (k0_off2_inb : ∀ i : grid0.Coords, ∀ a, (k0_off2 i) a + S1.size a ≤ S64.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let v2 : Index := Scalar.indexCast v1
  let v3 : BitVec 32 := pf.at 0 (Rect.unit (s := S64) ![v2.toNat] S1.size (k0_off2_inb i)) numel1_S1
  let c0_i32 : BitVec 32 := 0#32
  let c0_i32_0 : BitVec 32 := 0#32
  let c0_i32_1 : BitVec 32 := 0#32
  ![v3.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1152x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1152x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S64 : S_.BroadcastsInDim S64 (![] : Fin 0 → Fin S64.rank)
  transposes_S32x1152_S1152x32_1_0 : S32x1152.Transposes [1, 0] S1152x32
  shapeCasts_S1000x32_S1000x1x32 : S1000x32.ShapeCasts S1000x1x32
  numel1_S1 : S1.numel = 1
  inb_S1152x32_S1152x32_0_0 : ∀ a, (![0, 0] : Fin 2 → Nat) a + S1152x32.size a ≤ S1152x32.size a
  h_S1152x32 : 0 < S1152x32.numel
  shapeCasts_S1152x32_S1152x32 : S1152x32.ShapeCasts S1152x32
  bitsLt_bf16_f32 : FTy.bits .bf16 < FTy.bits .f32
  inb_S2x256x1152_S1x256x1152_0_0_0 : ∀ a, (![0, 0, 0] : Fin 3 → Nat) a + S1x256x1152.size a ≤ S2x256x1152.size a
  h_S1x256x1152 : 0 < S1x256x1152.numel
  shapeCasts_S1x256x1152_S256x1152 : S1x256x1152.ShapeCasts S256x1152
  inb_S1x1152x32_S1x1152x32_0_0_0 : ∀ a, (![0, 0, 0] : Fin 3 → Nat) a + S1x1152x32.size a ≤ S1x1152x32.size a
  h_S1x1152x32 : 0 < S1x1152x32.numel
  shapeCasts_S1x1152x32_S1152x32 : S1x1152x32.ShapeCasts S1152x32
  concatenates_S1152x32_S1152x32_S1152x64_d1 : Shape.Concatenates [S1152x32, S1152x32] S1152x64 1
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  concatenates_S1x32_S1x32_S1x64_d1 : Shape.Concatenates [S1x32, S1x32] S1x64 1
  broadcasts_S1x64_S256x64 : S1x64.Broadcasts S256x64
  concatenates_S256x64_S256x64_S256x128_d1 : Shape.Concatenates [S256x64, S256x64] S256x128 1
  inb_S2x256x128_S1x256x128_0_0_0 : ∀ a, (![0, 0, 0] : Fin 3 → Nat) a + S1x256x128.size a ≤ S2x256x128.size a
  h_S1x256x128 : 0 < S1x256x128.numel
  shapeCasts_S1x256x128_S256x128 : S1x256x128.ShapeCasts S256x128
  shapeCasts_S256x128_S1x256x128 : S256x128.ShapeCasts S1x256x128
  inb_S2x256x1152_S1x256x1152_1_0_0 : ∀ a, (![1, 0, 0] : Fin 3 → Nat) a + S1x256x1152.size a ≤ S2x256x1152.size a
  inb_S2x256x128_S1x256x128_1_0_0 : ∀ a, (![1, 0, 0] : Fin 3 → Nat) a + S1x256x128.size a ≤ S2x256x128.size a
  slices_S64x256x128_S64x256x32_0_0_0 : S64x256x128.Slices ![0, 0, 0] S64x256x32
  slices_S64x256x128_S64x256x32_0_0_32 : S64x256x128.Slices ![0, 0, 32] S64x256x32
  dot_S256x1152_S1152x64_S256x64_1_0_0_1_n_n_wf : DotDims.WF S256x1152 S1152x64 S256x64 [1] [0] [0] [1] [] []
  hrank0 : 0 < grid0.rank
  k0_off1_inb : ∀ i : grid0.Coords, ∀ a, (k0_off1 i) a + S1.size a ≤ S64.size a
  k0_off2_inb : ∀ i : grid0.Coords, ∀ a, (k0_off2 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x1152.size a ≤ S64x256x1152.size a
  hwx0_0 : ∀ i : grid0.Coords, EltTy.bits .f32 = 32 ∨ (Rect.block (s := S64x256x1152) S2x256x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x32.size a ≤ S1152x32.size a
  hwx0_1 : ∀ i : grid0.Coords, EltTy.bits .f32 = 32 ∨ (Rect.block (s := S1152x32) S1152x32.size (cc0_transform_1 i) (hinb0_1 i)).WholeWords (EltTy.packing .f32)
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off2_inb numel1_S1 pf i = cc0_transform_3 k0_off2_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off2_inb numel1_S1 pf i = cc0_transform_5 k0_off2_inb numel1_S1 pf i'
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x256x128.size a ≤ S64x256x128.size a
  hwx0_6 : ∀ i : grid0.Coords, EltTy.bits .f32 = 32 ∨ (Rect.block (s := S64x256x128) S2x256x128.size (cc0_transform_6 i) (hinb0_6 i)).WholeWords (EltTy.packing .f32)

variable [Facts₀]

def dot_S256x1152_S1152x64_S256x64_1_0_0_1_n_n : DotDims S256x1152 S1152x64 S256x64 where
  lhsContracting := [1]
  rhsContracting := [0]
  lhsNonContracting := [0]
  rhsNonContracting := [1]
  lhsBatch := []
  rhsBatch := []
  wf := dot_S256x1152_S1152x64_S256x64_1_0_0_1_n_n_wf

abbrev spec0_0 : Pipeline.WinSpec sig grid0.rank :=
  Pipeline.WinSpec.ofSpec (Memref.whole main_arg0) S2x256x1152.size reads0_0 false false 2 stage0_0 sem0_0 nbuf0_0 hstage0_0

abbrev spec0_1 : Pipeline.WinSpec sig grid0.rank :=
  Pipeline.WinSpec.ofSpec (Memref.whole main_v1) S1152x32.size reads0_1 false true 1 stage0_1 sem0_1 nbuf0_1 hstage0_1

abbrev spec0_2 : Pipeline.WinSpec sig grid0.rank :=
  Pipeline.WinSpec.ofSpec (Memref.whole main_arg3) S1x1152x32.size reads0_2 false false 2 stage0_2 sem0_2 nbuf0_2 hstage0_2

abbrev spec0_3 : Pipeline.WinSpec sig grid0.rank :=
  Pipeline.WinSpec.ofSpec (Memref.whole main_arg3) S1x1152x32.size reads0_3 false false 2 stage0_3 sem0_3 nbuf0_3 hstage0_3

abbrev spec0_4 : Pipeline.WinSpec sig grid0.rank :=
  Pipeline.WinSpec.ofSpec (Memref.whole main_v2) S1x1x32.size reads0_4 false false 2 stage0_4 sem0_4 nbuf0_4 hstage0_4

abbrev spec0_5 : Pipeline.WinSpec sig grid0.rank :=
  Pipeline.WinSpec.ofSpec (Memref.whole main_v2) S1x1x32.size reads0_5 false false 2 stage0_5 sem0_5 nbuf0_5 hstage0_5

abbrev spec0_6 : Pipeline.WinSpec sig grid0.rank :=
  Pipeline.WinSpec.ofSpec (Memref.whole main_v3) S2x256x128.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 k0_off1_inb numel1_S1 pf | 3 => cc0_transform_3 k0_off2_inb numel1_S1 pf | 4 => cc0_transform_4 k0_off1_inb numel1_S1 pf | 5 => cc0_transform_5 k0_off2_inb numel1_S1 pf | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 pf | 3 => hreads0_3 pf | 4 => hreads0_4 pf | 5 => hreads0_5 pf | 6 => hreads0_6 | ⟨_ + 7, h⟩ => absurd h (Nat.not_lt.2 (Nat.le_add_left _ _))
def ok0 (pf : pre0.Contents (Elt F)) : Prop :=
  (∀ i : grid0.Coords, ∃ h : (∀ a, (cc0_transform_2 k0_off1_inb numel1_S1 pf i a + 1) * S1x1152x32.size a ≤ S1000x1152x32.size a), EltTy.bits .f32 = 32 ∨ (Rect.block (s := S1000x1152x32) S1x1152x32.size (cc0_transform_2 k0_off1_inb numel1_S1 pf i) h).WholeWords (EltTy.packing .f32)) ∧
  (∀ i : grid0.Coords, ∃ h : (∀ a, (cc0_transform_3 k0_off2_inb numel1_S1 pf i a + 1) * S1x1152x32.size a ≤ S1000x1152x32.size a), EltTy.bits .f32 = 32 ∨ (Rect.block (s := S1000x1152x32) S1x1152x32.size (cc0_transform_3 k0_off2_inb numel1_S1 pf i) h).WholeWords (EltTy.packing .f32)) ∧
  (∀ i : grid0.Coords, ∃ h : (∀ a, (cc0_transform_4 k0_off1_inb numel1_S1 pf i a + 1) * S1x1x32.size a ≤ S1000x1x32.size a), EltTy.bits .f32 = 32 ∨ (Rect.block (s := S1000x1x32) S1x1x32.size (cc0_transform_4 k0_off1_inb numel1_S1 pf i) h).WholeWords (EltTy.packing .f32)) ∧
  (∀ i : grid0.Coords, ∃ h : (∀ a, (cc0_transform_5 k0_off2_inb numel1_S1 pf i a + 1) * S1x1x32.size a ≤ S1000x1x32.size a), EltTy.bits .f32 = 32 ∨ (Rect.block (s := S1000x1x32) S1x1x32.size (cc0_transform_5 k0_off2_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => fun i a => (hok.1 i).elim fun h _ => h a | 3 => fun i a => (hok.2.1 i).elim fun h _ => h a | 4 => fun i a => (hok.2.2.1 i).elim fun h _ => h a | 5 => fun i a => (hok.2.2.2 i).elim fun h _ => h a | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => fun i => (hok.1 i).elim fun _ h => h | 3 => fun i => (hok.2.1 i).elim fun _ h => h | 4 => fun i => (hok.2.2.1 i).elim fun _ h => h | 5 => fun i => (hok.2.2.2 i).elim fun _ h => h | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S64x256x1152 : Shape := ⟨3, ![64, 256, 1152]⟩
abbrev S64 : Shape := ⟨1, ![64]⟩
abbrev S32x1152 : Shape := ⟨2, ![32, 1152]⟩
abbrev S1000x1152x32 : Shape := ⟨3, ![1000, 1152, 32]⟩
abbrev S1000x32 : Shape := ⟨2, ![1000, 32]⟩
abbrev S64x256x32 : Shape := ⟨3, ![64, 256, 32]⟩
abbrev S_ : Shape := ⟨0, ![]⟩
abbrev S64x1 : Shape := ⟨2, ![64, 1]⟩
abbrev S64x1152x32 : Shape := ⟨3, ![64, 1152, 32]⟩
abbrev S64x32 : Shape := ⟨2, ![64, 32]⟩
abbrev S64x1x32 : Shape := ⟨3, ![64, 1, 32]⟩

abbrev nBuf : Space → Nat
  | .hbm => 28
  | .vmem => 0
  | .smem => 0
  | _ => 0

abbrev bufTy : (tb : Table) → Fin (tcTables nBuf tb) → BufTy
  | .hbm, ⟨0, _⟩ => ⟨S64x256x1152, .f32⟩
  | .hbm, ⟨1, _⟩ => ⟨S64, .i32⟩
  | .hbm, ⟨2, _⟩ => ⟨S32x1152, .f32⟩
  | .hbm, ⟨3, _⟩ => ⟨S1000x1152x32, .f32⟩
  | .hbm, ⟨4, _⟩ => ⟨S1000x32, .f32⟩
  | .hbm, ⟨5, _⟩ => ⟨S64x256x32, .f32⟩
  | .hbm, ⟨6, _⟩ => ⟨S_, .i32⟩
  | .hbm, ⟨7, _⟩ => ⟨S64, .i32⟩
  | .hbm, ⟨8, _⟩ => ⟨S64, .i1⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64x1, .i32⟩
  | .hbm, ⟨14, _⟩ => ⟨S64x1152x32, .f32⟩
  | .hbm, ⟨15, _⟩ => ⟨S_, .i32⟩
  | .hbm, ⟨16, _⟩ => ⟨S64, .i32⟩
  | .hbm, ⟨17, _⟩ => ⟨S64, .i1⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S64x1, .i32⟩
  | .hbm, ⟨23, _⟩ => ⟨S64x32, .f32⟩
  | .hbm, ⟨24, _⟩ => ⟨S64x1x32, .f32⟩
  | .hbm, ⟨25, _⟩ => ⟨S64x256x32, .f32⟩
  | .hbm, ⟨26, _⟩ => ⟨S64x256x32, .f32⟩
  | .hbm, ⟨27, _⟩ => ⟨S64x256x32, .f32⟩
  | _, _ => ⟨S64x256x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x32_S64x1x32_0_2 : S64x32.BroadcastsInDim S64x1x32 (![0, 2] : Fin 2 → Fin S64x1x32.rank)
  bcast_S64x1x32_S64x256x32_0_1_2 : S64x1x32.BroadcastsInDim S64x256x32 (![0, 1, 2] : Fin 3 → Fin S64x256x32.rank)
  dot_S64x256x1152_S32x1152_S64x256x32_2_1_01_0_n_n_wf : DotDims.WF S64x256x1152 S32x1152 S64x256x32 [2] [1] [0, 1] [0] [] []
  gather_S1000x1152x32_S64x1_S64x1152x32_12_0_n_n_0_1_1115232_wf : GatherDims.WF S1000x1152x32 S64x1 S64x1152x32 [1, 2] [0] [] [0] [] 1 ![1, 1152, 32]
  gather_S1000x32_S64x1_S64x32_1_0_n_n_0_1_132_wf : GatherDims.WF S1000x32 S64x1 S64x32 [1] [0] [] [0] [] 1 ![1, 32]
  dot_S64x256x1152_S64x1152x32_S64x256x32_2_1_1_2_0_0_wf : DotDims.WF S64x256x1152 S64x1152x32 S64x256x32 [2] [1] [1] [2] [0] [0]

variable [Facts₀]

def dot_S64x256x1152_S32x1152_S64x256x32_2_1_01_0_n_n : DotDims S64x256x1152 S32x1152 S64x256x32 where
  lhsContracting := [2]
  rhsContracting := [1]
  lhsNonContracting := [0, 1]
  rhsNonContracting := [0]
  lhsBatch := []
  rhsBatch := []
  wf := dot_S64x256x1152_S32x1152_S64x256x32_2_1_01_0_n_n_wf
def gather_S1000x1152x32_S64x1_S64x1152x32_12_0_n_n_0_1_1115232 : GatherDims S1000x1152x32 S64x1 S64x1152x32 where
  offsetDims := [1, 2]
  collapsedSliceDims := [0]
  operandBatchingDims := []
  startIndicesBatchingDims := []
  startIndexMap := [0]
  indexVectorDim := 1
  sliceSizes := ![1, 1152, 32]
  wf := gather_S1000x1152x32_S64x1_S64x1152x32_12_0_n_n_0_1_1115232_wf
def gather_S1000x32_S64x1_S64x32_1_0_n_n_0_1_132 : GatherDims S1000x32 S64x1 S64x32 where
  offsetDims := [1]
  collapsedSliceDims := [0]
  operandBatchingDims := []
  startIndicesBatchingDims := []
  startIndexMap := [0]
  indexVectorDim := 1
  sliceSizes := ![1, 32]
  wf := gather_S1000x32_S64x1_S64x32_1_0_n_n_0_1_132_wf
def dot_S64x256x1152_S64x1152x32_S64x256x32_2_1_1_2_0_0 : DotDims S64x256x1152 S64x1152x32 S64x256x32 where
  lhsContracting := [2]
  rhsContracting := [1]
  lhsNonContracting := [1]
  rhsNonContracting := [2]
  lhsBatch := [0]
  rhsBatch := [0]
  wf := dot_S64x256x1152_S64x1152x32_S64x256x32_2_1_1_2_0_0_wf

class Facts : Prop extends Facts₀ where

variable [Facts]
-- ==== Proof.KbEntry.lean ====
import proofs.«173310_j25847113187695_2_alg».proof.Proof.Gen.Kernel.Launch
import proofs.«173310_j25847113187695_2_alg».proof.Proof.Gen.Kernel.Skeleton
import Idealize.ShloMosaic.Lib.Pipeline.FrameSuffix
import Idealize.ShloMosaic.Lib.Pipeline.FrameBody
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- What a core's buffers hold when the region is entered: the launch contents carried through the two integer
    constants, the clamp of the labels into [0, 999], the transpose of the shared weight and the reshape of the bias table. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to the region, continued by the two slices, at the contents `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The table the index maps read is the labels clamped: min(999, max(0, y)) entry by entry. -/
theorem V_tbl (c : Dev nD) : (V m c main_v0 : S64.Idx → BitVec 32)
    = minsi (broadcastInDim S64 ![] bcast_S_S64 (constantI S_ 32 999#32)) (maxsi (broadcastInDim S64 ![] bcast_S_S64 (constantI S_ 32 0#32)) (m (c, (main_arg1 : Ref sig .tc)))) := by
  dsimp only [V]
  simp only [hostOps0, hostOps0_1, hostOps0_2, List.flatten_cons, List.flatten_nil, List.append_nil, List.cons_append, List.nil_append]
  after_results
  rfl

/-! ## The clamped labels index inside the tables -/

/-- min(999, max(0, y)), read unsigned, is at most 999. -/
theorem clip_le (y : BitVec 32) : (IntOp.minsi (999#32) (IntOp.maxsi (0#32) y)).toNat ≤ 999 := by
  unfold IntOp.minsi IntOp.maxsi
  by_cases h0 : y.slt 0#32 = true
  · rw [if_pos h0]; decide
  · rw [if_neg h0]
    by_cases h1 : (999#32).slt y = true
    · rw [if_pos h1]; decide
    · rw [if_neg h1]
      simp only [BitVec.slt, decide_eq_true_eq] at h0 h1
      have hc := BitVec.toInt_eq_toNat_cond y
      have h999 : (999#32).toInt = 999 := by decide
      have h00 : (0#32).toInt = 0 := by decide
      rw [h999] at h1; rw [h00] at h0
      have hy := y.isLt
      split at hc <;> omega

/-- Every entry of the table the region is entered with is at most 999. -/
theorem V_tbl_le (c : Dev nD) (j : S64.Idx) : ((V m c main_v0 : S64.Idx → BitVec 32) j).toNat ≤ 999 := by
  rw [V_tbl]; exact clip_le _

/-- The prefetched table's contents at the region's entry (one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

theorem tbl_le (j : S64.Idx) : ((tbl m 0 : S64.Idx → BitVec 32) j).toNat ≤ 999 := V_tbl_le m 0 j

/-- Each table-indexed block — one class's weight slab, one class's bias row — lies inside its array, because the class
    index is at most 999; the elements are word-wide. -/
theorem ok_tbl : ok0 (F := F) (tbl m) := by
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    match a with
    | ⟨0, _⟩ =>
      show (BitVec.toNat _ + 1) * 1 ≤ 1000
      exact (by omega : ∀ n, n ≤ 999 → (n + 1) * 1 ≤ 1000) _ (tbl_le m _)
    | ⟨1, _⟩ => first | exact Nat.le_refl _ | (show ((0#32).toNat + 1) * _ ≤ _; decide)
    | ⟨2, _⟩ => first | exact Nat.le_refl _ | (show ((0#32).toNat + 1) * _ ≤ _; decide)

abbrev adm : (pcfg0 (F := F)).Adm := ⟨tbl m, ok_tbl m⟩
abbrev cfgM : Pipeline.Cfg sig Λ₀ := cfg0 (adm m)

end Cert.Kernel.Hand

end
-- ==== Proof.KbBody.lean ====
import proofs.«173310_j25847113187695_2_alg».proof.Proof.Gen.Kernel.Launch
import proofs.«173310_j25847113187695_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The kernel body on any whole staging memrefs

The body reads the two batch rows' activations, the shared weight, the two gathered class weights and bias rows, and
stores one 256 x 128 slab per batch row into the output block: the two stores are the pieces the run finds. -/

set_option maxHeartbeats 4000000 in
noncomputable def kernelRun (c : Dev nD) (i : grid0.Coords) (arg1 : Memref sig .tc .smem S64 .i32) (harg1 : arg1.IsWhole)
    (arg2 : Memref sig .tc .vmem S2x256x1152 .f32) (harg2 : arg2.IsWhole) (arg3 : Memref sig .tc .vmem S1152x32 .f32) (harg3 : arg3.IsWhole)
    (arg4 : Memref sig .tc .vmem S1x1152x32 .f32) (harg4 : arg4.IsWhole) (arg5 : Memref sig .tc .vmem S1x1152x32 .f32) (harg5 : arg5.IsWhole)
    (arg6 : Memref sig .tc .vmem S1x1x32 .f32) (harg6 : arg6.IsWhole) (arg7 : Memref sig .tc .vmem S1x1x32 .f32) (harg7 : arg7.IsWhole)
    (arg8 : Memref sig .tc .vmem S2x256x128 .f32) (harg8 : arg8.IsWhole)
    (x0 : Vec F S2x256x1152 .f32) (x1 : Vec F S1152x32 .f32) (x2 : Vec F S1x1152x32 .f32) (x3 : Vec F S1x1152x32 .f32)
    (x4 : Vec F S1x1x32 .f32) (x5 : Vec F S1x1x32 .f32) :
    { L : List (View.Piece (Elt F) S2x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L)) -∗ K ⟨⟩))
          ⊢ wp frame (wpE (defs₀ (F := F)) Variants.none c none) E (cc0__twins_kernel i arg1 harg1 arg2 harg2 arg3 harg3 arg4 harg4 arg5 harg5 arg6 harg6 arg7 harg7 arg8 harg8) K } := by
  refine ⟨?_, fun E K => ?run⟩
  case run =>
    simp only [cc0__twins_kernel_eq_skeleton]; unfold cc0__twins_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Hand

end
-- ==== Proof.KbDat.lean ====
import proofs.«173310_j25847113187695_2_alg».proof.Proof.Gen.Kernel.Launch
import proofs.«173310_j25847113187695_2_alg».proof.Proof.Gen.Kernel.Skeleton
import Idealize.ShloMosaic.Lib.Pipeline.FrameSuffix
import Idealize.ShloMosaic.Lib.Pipeline.FrameBody
import Idealize.ShloMosaic.Lib.StableHlo.Run
import proofs.«173310_j25847113187695_2_alg».proof.Proof.KbEntry
import proofs.«173310_j25847113187695_2_alg».proof.Proof.KbBody
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks and the staging memrefs at a point -/

/-- Window `w`'s block at point `t`, read off its array as the region finds it; for the class weight and bias windows the
    block's position is the table's word at the point's batch row. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin (cfgM m).N) : Memref sig .tc .vmem S2x256x1152 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1152x32 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1152x32 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x1152x32 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x1x32 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x1x32 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S2x256x128 .f32 := spec0_6.stage ((cfgM m).slots t 6)
abbrev hs6 (t : Fin (cfgM m).N) : (ms6 m t).IsWhole := hstage0_6 (((cfgM m).slots t 6).cast nbuf0_6)

/-- The body at point `t`, on what the pipeline calls it with. -/
abbrev bodyAt (t : Fin (cfgM m).N) : Prog (TpuEff nD τ sig (Elt F) Λ₀ .tc) PUnit :=
  cc0__twins_kernel (grid0.coords t) (Memref.whole main_v0) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t)

/-! ## What the body leaves in the output block -/

abbrev VO : View sig .tc .vmem S2x256x128 .f32 := (Memref.whole cc0_stg6_0 : Memref sig .tc .vmem S2x256x128 .f32).view

/-- The two stores, one 256 x 128 slab per batch row, tile the 2 x 256 x 128 block. -/
theorem cover (c : Dev nD) (i : grid0.Coords) (arg1 : Memref sig .tc .smem S64 .i32) (harg1 : arg1.IsWhole)
    (arg2 : Memref sig .tc .vmem S2x256x1152 .f32) (harg2 : arg2.IsWhole) (arg3 : Memref sig .tc .vmem S1152x32 .f32) (harg3 : arg3.IsWhole)
    (arg4 : Memref sig .tc .vmem S1x1152x32 .f32) (harg4 : arg4.IsWhole) (arg5 : Memref sig .tc .vmem S1x1152x32 .f32) (harg5 : arg5.IsWhole)
    (arg6 : Memref sig .tc .vmem S1x1x32 .f32) (harg6 : arg6.IsWhole) (arg7 : Memref sig .tc .vmem S1x1x32 .f32) (harg7 : arg7.IsWhole)
    (arg8 : Memref sig .tc .vmem S2x256x128 .f32) (harg8 : arg8.IsWhole)
    (x0 : Vec F S2x256x1152 .f32) (x1 : Vec F S1152x32 .f32) (x2 : Vec F S1x1152x32 .f32) (x3 : Vec F S1x1152x32 .f32)
    (x4 : Vec F S1x1x32 .f32) (x5 : Vec F S1x1x32 .f32) (y : S2x256x128.Idx) :
    ∃ pc ∈ (kernelRun c i arg1 harg1 arg2 harg2 arg3 harg3 arg4 harg4 arg5 harg5 arg6 harg6 arg7 harg7 arg8 harg8 x0 x1 x2 x3 x4 x5).1, y ∈ pc.1.set :=
  View.cover_of_tiledL (kernelRun c i arg1 harg1 arg2 harg2 arg3 harg3 arg4 harg4 arg5 harg5 arg6 harg6 arg7 harg7 arg8 harg8 x0 x1 x2 x3 x4 x5).1 S1x256x128.size (by sl_kernel_rfl) y

/-- The output block after the body: the stores read back. -/
def outOf (c : Dev nD) (i : grid0.Coords) (arg1 : Memref sig .tc .smem S64 .i32) (harg1 : arg1.IsWhole)
    (arg2 : Memref sig .tc .vmem S2x256x1152 .f32) (harg2 : arg2.IsWhole) (arg3 : Memref sig .tc .vmem S1152x32 .f32) (harg3 : arg3.IsWhole)
    (arg4 : Memref sig .tc .vmem S1x1152x32 .f32) (harg4 : arg4.IsWhole) (arg5 : Memref sig .tc .vmem S1x1152x32 .f32) (harg5 : arg5.IsWhole)
    (arg6 : Memref sig .tc .vmem S1x1x32 .f32) (harg6 : arg6.IsWhole) (arg7 : Memref sig .tc .vmem S1x1x32 .f32) (harg7 : arg7.IsWhole)
    (arg8 : Memref sig .tc .vmem S2x256x128 .f32) (harg8 : arg8.IsWhole)
    (x0 : Vec F S2x256x1152 .f32) (x1 : Vec F S1152x32 .f32) (x2 : Vec F S1x1152x32 .f32) (x3 : Vec F S1x1152x32 .f32)
    (x4 : Vec F S1x1x32 .f32) (x5 : Vec F S1x1x32 .f32) : Vec F S2x256x128 .f32 :=
  VO.read (Elt F) (VO.writes (Elt F) VO.junk (kernelRun c i arg1 harg1 arg2 harg2 arg3 harg3 arg4 harg4 arg5 harg5 arg6 harg6 arg7 harg7 arg8 harg8 x0 x1 x2 x3 x4 x5).1)

def outsAt (c : Dev nD) (t : Fin (cfgM m).N) : Vec F S2x256x128 .f32 :=
  outOf c (grid0.coords t) (Memref.whole main_v0) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (iblk m c 0 t) (iblk m c 1 t) (iblk m c 2 t) (iblk m c 3 t) (iblk m c 4 t) (iblk m c 5 t)

/-! ## The proof data -/

/-- The arrays as the region finds them; each input's buffer keeps its block, the output's holds the body's result; the
    invariant is the table's half and the scoped rest, untouched by the body; the class weight table and the bias table
    are each read through two windows, which split the array between them. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t
  Φ _ := iprop(Pipeline.prefHeld pre0 c (fun _ => fullShare.right) (tbl m) ∗ Pipeline.scopedRest spec0 c)
  q w := match w with
    | ⟨0, _⟩ => fullShare
    | ⟨1, _⟩ => fullShare
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = iblk m c 5 t := by dsimp only [dats]; try rfl
theorem after6 (c : Dev nD) (t : Fin (cfgM m).N) : (dats m 0 c).after 6 t = outsAt m c t := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d
theorem before2 (c : Dev nD) (t : Fin (cfgM m).N) (d) : (dats m 0 c).before 2 t d = iblk m c 2 t :=
  before2_of m (dats m 0 c) (A_eq m c 2) (after2 m c) t d
theorem before3 (c : Dev nD) (t : Fin (cfgM m).N) (d) : (dats m 0 c).before 3 t d = iblk m c 3 t :=
  before3_of m (dats m 0 c) (A_eq m c 3) (after3 m c) t d
theorem before4 (c : Dev nD) (t : Fin (cfgM m).N) (d) : (dats m 0 c).before 4 t d = iblk m c 4 t :=
  before4_of m (dats m 0 c) (A_eq m c 4) (after4 m c) t d
theorem before5 (c : Dev nD) (t : Fin (cfgM m).N) (d) : (dats m 0 c).before 5 t d = iblk m c 5 t :=
  before5_of m (dats m 0 c) (A_eq m c 5) (after5 m c) t d

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  unfold outsAt
  unfold outOf
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover c _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KbLaunch.lean ====
import proofs.«173310_j25847113187695_2_alg».proof.Proof.Gen.Kernel.Launch
import proofs.«173310_j25847113187695_2_alg».proof.Proof.Gen.Kernel.Skeleton
import Idealize.ShloMosaic.Lib.Pipeline.FrameSuffix
import Idealize.ShloMosaic.Lib.Pipeline.FrameBody
import Idealize.ShloMosaic.Lib.StableHlo.Run
import proofs.«173310_j25847113187695_2_alg».proof.Proof.KbDat
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window, and the buffers behind them -/

/-- The pipeline's arrays at contents `Fn`: the activations, the transposed shared weight and the output whole; the class weight
    table and the reshaped bias table each as two halves, one per window reading it. -/
theorem arrays_chain (c : Dev nD) (Fn : (w : Fin (cfgM m).W) → Buf (Elt F) (((cfgM m).win w).arr.view.loc (c.tc : Thread nD τ))) :
    ((dats m 0 c).arrays Fn : sProp 𝕄) = iprop(
      (((c.tc : Thread nD τ).loc (Pipeline.arrRef spec0 (0 : Fin 7))) ↦{fullShare} Fn 0)
      ∗ (((c.tc : Thread nD τ).loc (Pipeline.arrRef spec0 (1 : Fin 7))) ↦{fullShare} Fn 1)
      ∗ (((c.tc : Thread nD τ).loc (Pipeline.arrRef spec0 (2 : Fin 7))) ↦{fullShare.left} Fn 2)
      ∗ (((c.tc : Thread nD τ).loc (Pipeline.arrRef spec0 (3 : Fin 7))) ↦{fullShare.right} Fn 3)
      ∗ (((c.tc : Thread nD τ).loc (Pipeline.arrRef spec0 (4 : Fin 7))) ↦{fullShare.left} Fn 4)
      ∗ (((c.tc : Thread nD τ).loc (Pipeline.arrRef spec0 (5 : Fin 7))) ↦{fullShare.right} Fn 5)
      ∗ (((c.tc : Thread nD τ).loc (Pipeline.arrRef spec0 (6 : Fin 7))) ↦{fullShare} Fn 6)) := by
  have h : ((dats m 0 c).arrays Fn : sProp 𝕄) = bigSep Finset.univ fun w : Fin 7 =>
      (((c.tc : Thread nD τ).loc (Pipeline.arrRef spec0 w)) ↦{(dats m 0 c).share w} Fn w : sProp 𝕄) := by
    unfold Dat.arrays
    exact bigSep_congr fun w _ => by rw [(arr_whole0 w).set_eq_univ]
  rw [h, bigSep_W0]
  rfl

/-- The five distinct buffers behind the seven windows. -/
theorem arrBufs_chain (c : Dev nD) (Vv : (b : Ref sig .tc) → Buf (Elt F) ((c.tc : Thread nD τ).loc b)) :
    (Pipeline.arrBufs spec0 c Vv : sProp 𝕄) = iprop(
      (((c.tc : Thread nD τ).loc main_arg0) ↦{fullShare} Vv main_arg0) ∗ (((c.tc : Thread nD τ).loc main_v1) ↦{fullShare} Vv main_v1)
      ∗ (((c.tc : Thread nD τ).loc main_arg3) ↦{fullShare} Vv main_arg3) ∗ (((c.tc : Thread nD τ).loc main_v2) ↦{fullShare} Vv main_v2)
      ∗ (((c.tc : Thread nD τ).loc main_v3) ↦{fullShare} Vv main_v3)) := by
  unfold Pipeline.arrBufs
  rw [bigSep_eq_bigSepL_of_eq [main_arg0, main_v1, main_arg3, main_v2, main_v3] (by decide) (by decide)]
  rfl

/-- The buffers behind the arrays make the pipeline's arrays at entry: a table read through two windows is split in halves. -/
theorem hsplit (c : Dev nD) : (Pipeline.arrBufs (cfgM m).spec c (V m c) : sProp 𝕄) ⊢ (dats m 0 c).arrays ((dats m 0 c).arrAt · 0) := by
  rw [arrays_chain, show (Pipeline.arrBufs (cfgM m).spec c (V m c) : sProp 𝕄) = Pipeline.arrBufs spec0 c (V m c) from rfl, arrBufs_chain]
  iintro ⟨H0, H1, H3, H2, H6⟩
  ihave ⟨H3a, H3b⟩ := (pointsTo_share (PosShare.mem_left_op_right fullShare)).1 $$ H3
  ihave ⟨H2a, H2b⟩ := (pointsTo_share (PosShare.mem_left_op_right fullShare)).1 $$ H2
  isplitl [H0]; · iexact H0
  isplitl [H1]; · iexact H1
  isplitl [H3a]; · iexact H3a
  isplitl [H3b]; · iexact H3b
  isplitl [H2a]; · iexact H2a
  isplitl [H2b]; · iexact H2b
  iexact H6

/-! ## The argument arrays at the region's entry -/

theorem V_arg0 (c : Dev nD) : V m c main_arg0 = m ((c.tc : Thread nD τ).loc main_arg0) := by
  dsimp only [V]
  simp only [hostOps0, hostOps0_1, hostOps0_2, List.flatten_cons, List.flatten_nil, List.append_nil, List.cons_append, List.nil_append]
  first | (after_results; rfl) | rfl
theorem V_arg1 (c : Dev nD) : V m c main_arg1 = m ((c.tc : Thread nD τ).loc main_arg1) := by
  dsimp only [V]
  simp only [hostOps0, hostOps0_1, hostOps0_2, List.flatten_cons, List.flatten_nil, List.append_nil, List.cons_append, List.nil_append]
  first | (after_results; rfl) | rfl
theorem V_arg2 (c : Dev nD) : V m c main_arg2 = m ((c.tc : Thread nD τ).loc main_arg2) := by
  dsimp only [V]
  simp only [hostOps0, hostOps0_1, hostOps0_2, List.flatten_cons, List.flatten_nil, List.append_nil, List.cons_append, List.nil_append]
  first | (after_results; rfl) | rfl
theorem V_arg3 (c : Dev nD) : V m c main_arg3 = m ((c.tc : Thread nD τ).loc main_arg3) := by
  dsimp only [V]
  simp only [hostOps0, hostOps0_1, hostOps0_2, List.flatten_cons, List.flatten_nil, List.append_nil, List.cons_append, List.nil_append]
  first | (after_results; rfl) | rfl
theorem V_arg4 (c : Dev nD) : V m c main_arg4 = m ((c.tc : Thread nD τ).loc main_arg4) := by
  dsimp only [V]
  simp only [hostOps0, hostOps0_1, hostOps0_2, List.flatten_cons, List.flatten_nil, List.append_nil, List.cons_append, List.nil_append]
  first | (after_results; rfl) | rfl

/-! ## The two slices after the region -/

/-- The buffers' contents at the region's entry, as a valuation. -/
abbrev V₀ (c : Dev nD) : Valuation τ sig (Elt F) :=
  StableHlo.after (List.flatten [hostOps0, hostOps0_1, hostOps0_2]) (fun b => m (c, b))

/-- The contents at the region's exit: the padded output at what the write-backs left, everything else as at entry. -/
def Wx (c : Dev nD) : Valuation τ sig (Elt F) :=
  Function.update (V₀ m c) (Proc.devRef .tc main_v3) ((dats m 0 c).arrAt 6 (cfgM m).N)

theorem Wx_v3 (c : Dev nD) : Wx m c (Proc.devRef .tc main_v3) = (dats m 0 c).arrAt 6 (cfgM m).N := by
  unfold Wx; exact Function.update_self ..

theorem Wx_ne (c : Dev nD) (b : Ref sig .tc) (h : b ≠ main_v3) : Wx m c (Proc.devRef .tc b) = V m c b := by
  unfold Wx; exact Function.update_of_ne (StableHlo.devRef_ne_of_ne h) ..

/-- The three buffers the slices touch: the padded output they read, the two results they write. -/
abbrev S3 : Finset (DevRef τ sig) := {Proc.devRef .tc main_v3, Proc.devRef .tc main_v4, Proc.devRef .tc main_v5}

theorem held_S3 (c : Dev nD) (Wv : Valuation τ sig (Elt F)) :
    (StableHlo.held (c.tc : Thread nD τ) S3 Wv : sProp 𝕄)
      = iprop((((c.tc : Thread nD τ).loc main_v3) ↦{fullShare} Wv (Proc.devRef .tc main_v3))
          ∗ (((c.tc : Thread nD τ).loc main_v4) ↦{fullShare} Wv (Proc.devRef .tc main_v4))
          ∗ (((c.tc : Thread nD τ).loc main_v5) ↦{fullShare} Wv (Proc.devRef .tc main_v5))) := by
  unfold StableHlo.held
  rw [bigSep_eq_bigSepL_of_eq [Proc.devRef .tc main_v3, Proc.devRef .tc main_v4, Proc.devRef .tc main_v5] (by decide) (by decide)]
  rfl

/-- What every buffer no window stages holds at the end: the two results at the slices of the padded output, the others as at entry. -/
def Vf (c : Dev nD) (b : Ref sig .tc) : Buf (Elt F) ((c.tc : Thread nD τ).loc b) :=
  StableHlo.after hostOps1 (Wx m c) (Proc.devRef .tc b)

theorem hostOps1_writes (b : Ref sig .tc) (h4 : b ≠ main_v4) (h5 : b ≠ main_v5) :
    ∀ op ∈ (hostOps1 : List (HloOp τ sig (Elt F))), Proc.devRef .tc b ∉ op.writes := by
  intro op hop
  simp only [hostOps1, List.mem_cons, List.mem_singleton, List.not_mem_nil, or_false] at hop
  rcases hop with rfl | rfl
  · simp only [StableHlo.unary_writes, Finset.mem_singleton]; exact StableHlo.devRef_ne_of_ne h4
  · simp only [StableHlo.unary_writes, Finset.mem_singleton]; exact StableHlo.devRef_ne_of_ne h5

theorem Vf_keep (c : Dev nD) (b : Ref sig .tc) (h3 : b ≠ main_v3) (h4 : b ≠ main_v4) (h5 : b ≠ main_v5) : Vf m c b = V m c b := by
  unfold Vf
  rw [StableHlo.after_of_forall_not_mem _ _ (hostOps1_writes b h4 h5)]
  exact Wx_ne m c b h3

theorem after_v3 (c : Dev nD) : StableHlo.after hostOps1 (Wx m c) (Proc.devRef .tc main_v3) = (dats m 0 c).arrAt 6 (cfgM m).N := by
  rw [StableHlo.after_of_forall_not_mem _ _ (hostOps1_writes main_v3 (by decide) (by decide))]
  exact Wx_v3 m c

theorem hostOps1_bufs : ∀ ops ∈ ([hostOps1] : List (List (HloOp τ sig (Elt F)))), ∀ op ∈ ops, op.bufs ⊆ S3 := by
  intro ops hops op hop
  simp only [List.mem_singleton] at hops
  subst hops
  simp only [hostOps1, List.mem_cons, List.mem_singleton, List.not_mem_nil, or_false] at hop
  rcases hop with rfl | rfl
  · rw [StableHlo.unary_bufs]; decide
  · rw [StableHlo.unary_bufs]; decide

theorem hostOps1_fresh' : ∀ ops ∈ ([hostOps1] : List (List (HloOp τ sig (Elt F)))), ∀ op ∈ ops, op.fresh = ∅ := by
  intro ops hops op hop
  simp only [List.mem_singleton] at hops
  subst hops
  exact (List.forall_iff_forall_mem.mp hostOps1_fresh) op hop

set_option backward.isDefEq.respectTransparency.types false in
/-- From the region's exit the two slices run, reading the padded output and writing the two results; the arrays come back as
    they were and the buffers no window stages at their final contents. -/
theorem htail (c : Dev nD) (Q' : PUnit → sProp 𝕄) :
    iprop((iprop((dats m 0 c).arrays ((dats m 0 c).arrAt · (cfgM m).N) ∗ Pipeline.unscopedRestP pre0 spec0 c (Vf m c)) -∗ Q' ⟨⟩)
        ∗ boundary (c.tc : Thread nD τ) ∗ (dats m 0 c).arrays ((dats m 0 c).arrAt · (cfgM m).N) ∗ Pipeline.unscopedRestP pre0 spec0 c (V m c))
      ⊢ wp frame (wpE (Pipeline.defs pcfgs (defs₀ (F := F))) (Variants.lift Variants.none) (c.tc : Thread nD τ) none) Set.univ
          (Pipeline.chain [StableHlo.seq hostOps1]) Q' := by
  rw [arrays_chain, unscopedRestP0_eq, unscopedRestP0_eq,
    Vf_keep m c main_arg1 (by decide) (by decide) (by decide),
    Vf_keep m c main_arg2 (by decide) (by decide) (by decide),
    Vf_keep m c main_arg4 (by decide) (by decide) (by decide),
    Vf_keep m c main_c (by decide) (by decide) (by decide),
    Vf_keep m c main_c_0 (by decide) (by decide) (by decide),
    Vf_keep m c main_call0_v0 (by decide) (by decide) (by decide),
    Vf_keep m c main_call0_v1 (by decide) (by decide) (by decide),
    Vf_keep m c main_call0_v2 (by decide) (by decide) (by decide),
    Vf_keep m c main_call0_v3 (by decide) (by decide) (by decide),
    Vf_keep m c main_call0_v4 (by decide) (by decide) (by decide)]
  have hW := Pipeline.wp_seqs_then (Ix := Unit) (Name := ℕ) (U := UR sig nD τ) (Lvl := ℕ) pcfgs (defs₀ (F := F)) Variants.none c S3 [] (K := Q') [hostOps1] hostOps1_bufs hostOps1_fresh' (Wx m c)
  rw [held_S3, held_S3, List.flatten_cons, List.flatten_nil, List.append_nil, after_v3, Wx_v3, Wx_ne m c main_v4 (by decide), Wx_ne m c main_v5 (by decide)] at hW
  iintro ⟨Hk, Hb, ⟨A0, A1, A2, A3, A4, A5, A6⟩, ⟨R1, R2, R4, Rc, Rc0, Ra, Rb, Rc2, Rd, Re, Rv4, Rv5⟩⟩
  iapply hW $$ [Hb A6 Rv4 Rv5]
  · isplitl [Hb]; · iexact Hb
    isplitl [A6]; · iexact A6
    isplitl [Rv4]; · iexact Rv4
    iexact Rv5
  iintro ⟨Hb, A6, Rv4, Rv5⟩
  rw [Pipeline.chain_nil, wp_pure]
  imodintro
  iapply Hk
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [R1]; · iexact R1
  isplitl [R2]; · iexact R2
  isplitl [R4]; · iexact R4
  isplitl [Rc]; · iexact Rc
  isplitl [Rc0]; · iexact Rc0
  isplitl [Ra]; · iexact Ra
  isplitl [Rb]; · iexact Rb
  isplitl [Rc2]; · iexact Rc2
  isplitl [Rd]; · iexact Rd
  isplitl [Re]; · iexact Re
  isplitl [Rv4]; · iexact Rv4
  iexact Rv5

/-! ## The run -/

/-- Where every weakly fair execution ends: the two results at the slices of the padded output, the arguments as launched. -/
def QC : PUnit × MemSt nD τ sig (Elt F) → Prop := fun r =>
  ∀ c : Dev nD,
    r.2.mem ((c.tc : Thread nD τ).loc main_v4) = Vf m c main_v4
    ∧ r.2.mem ((c.tc : Thread nD τ).loc main_v5) = Vf m c main_v5
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

set_option backward.isDefEq.respectTransparency.types false in
set_option maxHeartbeats 4000000 in
/-- From any launch memory with zero counters every weakly fair execution terminates, faults nowhere, and ends in `QC`: the host
    lines, the region over its 32 points with the clamped labels as its table, then the two slices. -/
theorem run_main : θ_run (defs (F := F)) (onTc (τ := τ) (main (F := F))) (s₀ m ρ) (QC m) :=
  Pipeline.θ_run_region_noSem_pf_tail pcfgs (fun _ => adm m) (dats m) () (cellOf_inj (F := F) fun _ => adm m) (0 : Fin 1)
    winFacts₀0 preFacts0 emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells (Pipeline.pin pcfgs fun _ => adm m) (cellOf_inj (F := F) fun _ => adm m))
      (Pipeline.launchToks (Pipeline.pin pcfgs fun _ => adm m) (cellOf_inj (F := F) fun _ => adm m)))
    (hu₀ := .rfl)
    (V := V m) (hmain := hmain m Variants.none)
    (hsplit := hsplit m) (hpf := V_pre m)
    (X := fun _ => iprop(emp)) (Y := fun _ => iprop(emp))
    (Z := fun c => Pipeline.unscopedRestP pre0 spec0 c (V m c)) (Z' := fun c => Pipeline.unscopedRestP pre0 spec0 c (Vf m c))
    (hX := fun c => by
      iintro H; isplitr; · iempintro
      iexact H)
    (hin := fun c => by
      rw [show (dats m 0 c).Φ 0 = iprop(Pipeline.prefHeld pre0 c (fun _ => fullShare.right) (tbl m) ∗ Pipeline.scopedRest spec0 c) from rfl]
      iintro ⟨-, Ht, Hr⟩
      isplitl [Ht]; · iexact Ht
      iexact Hr)
    (hout := fun c => by
      rw [show (dats m 0 c).Φ (Fin.last (cfgM m).N) = iprop(Pipeline.prefHeld pre0 c (fun _ => fullShare.right) (tbl m) ∗ Pipeline.scopedRest spec0 c) from rfl]
      iintro ⟨-, Hr⟩
      isplitr; · iempintro
      iexact Hr)
    (htail := htail m)
    (QY := fun c s => ∀ b ∈ Pipeline.restRefsP sig pre0 spec0, s.mem ((c.tc : Thread nD τ).loc b) = Vf m c b)
    (hY := fun c s' => by
      iintro ⟨-, HU, HSI⟩
      unfold Pipeline.unscopedRestP
      imodintro
      iapply (pointsTo_read_all (Pipeline.restRefsP sig pre0 spec0) (fun b => (c.tc : Thread nD τ).loc b) (Vf m c) s')
      isplitl [HU] <;> iassumption)
    (hQ := fun s h c => ⟨(h c).2.2 main_v4 (by decide), (h c).2.2 main_v5 (by decide),
      ((h c).1 0).trans (((dats m 0 c).arrAt_in 0 rfl _).trans ((A_eq m c 0).trans (V_arg0 m c))),
      ((h c).2.2 main_arg1 (by decide)).trans ((Vf_keep m c main_arg1 (by decide) (by decide) (by decide)).trans (V_arg1 m c)),
      ((h c).2.2 main_arg2 (by decide)).trans ((Vf_keep m c main_arg2 (by decide) (by decide) (by decide)).trans (V_arg2 m c)),
      ((h c).1 2).trans (((dats m 0 c).arrAt_in 2 rfl _).trans ((A_eq m c 2).trans (V_arg3 m c))),
      ((h c).2.2 main_arg4 (by decide)).trans ((Vf_keep m c main_arg4 (by decide) (by decide) (by decide)).trans (V_arg4 m c))⟩)

/-- The frame: every weakly fair execution terminates, nothing faults, and the five argument arrays end as launched. It holds of
    every launch memory, since the labels are clamped before any class is looked up. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2.2) (run_main m ρ)

end Cert.Kernel.Hand

end
-- ==== Proof.KiEntry.lean ====
import proofs.«173310_j25847113187695_2_alg».proof.Proof.Gen.KernelIdeal.Launch
import proofs.«173310_j25847113187695_2_alg».proof.Proof.Gen.KernelIdeal.Skeleton
import Idealize.ShloMosaic.Lib.Pipeline.FrameSuffix
import Idealize.ShloMosaic.Lib.Pipeline.FrameBody
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- What a core's buffers hold when the region is entered: the launch contents carried through the two integer
    constants, the clamp of the labels into [0, 999], the transpose of the shared weight and the reshape of the bias table. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program reduces to the region, continued by the two slices, at the contents `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The table the index maps read is the labels clamped: min(999, max(0, y)) entry by entry. -/
theorem V_tbl (c : Dev nD) : (V m c main_v0 : S64.Idx → BitVec 32)
    = minsi (broadcastInDim S64 ![] bcast_S_S64 (constantI S_ 32 999#32)) (maxsi (broadcastInDim S64 ![] bcast_S_S64 (constantI S_ 32 0#32)) (m (c, (main_arg1 : Ref sig .tc)))) := by
  dsimp only [V]
  simp only [hostOps0, hostOps0_1, hostOps0_2, List.flatten_cons, List.flatten_nil, List.append_nil, List.cons_append, List.nil_append]
  after_results
  rfl

/-! ## The clamped labels index inside the tables -/

/-- min(999, max(0, y)), read unsigned, is at most 999. -/
theorem clip_le (y : BitVec 32) : (IntOp.minsi (999#32) (IntOp.maxsi (0#32) y)).toNat ≤ 999 := by
  unfold IntOp.minsi IntOp.maxsi
  by_cases h0 : y.slt 0#32 = true
  · rw [if_pos h0]; decide
  · rw [if_neg h0]
    by_cases h1 : (999#32).slt y = true
    · rw [if_pos h1]; decide
    · rw [if_neg h1]
      simp only [BitVec.slt, decide_eq_true_eq] at h0 h1
      have hc := BitVec.toInt_eq_toNat_cond y
      have h999 : (999#32).toInt = 999 := by decide
      have h00 : (0#32).toInt = 0 := by decide
      rw [h999] at h1; rw [h00] at h0
      have hy := y.isLt
      split at hc <;> omega

/-- Every entry of the table the region is entered with is at most 999. -/
theorem V_tbl_le (c : Dev nD) (j : S64.Idx) : ((V m c main_v0 : S64.Idx → BitVec 32) j).toNat ≤ 999 := by
  rw [V_tbl]; exact clip_le _

/-- The prefetched table's contents at the region's entry (one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

theorem tbl_le (j : S64.Idx) : ((tbl m 0 : S64.Idx → BitVec 32) j).toNat ≤ 999 := V_tbl_le m 0 j

/-- Each table-indexed block — one class's weight slab, one class's bias row — lies inside its array, because the class
    index is at most 999; the elements are word-wide. -/
theorem ok_tbl : ok0 (F := F) (tbl m) := by
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    match a with
    | ⟨0, _⟩ =>
      show (BitVec.toNat _ + 1) * 1 ≤ 1000
      exact (by omega : ∀ n, n ≤ 999 → (n + 1) * 1 ≤ 1000) _ (tbl_le m _)
    | ⟨1, _⟩ => first | exact Nat.le_refl _ | (show ((0#32).toNat + 1) * _ ≤ _; decide)
    | ⟨2, _⟩ => first | exact Nat.le_refl _ | (show ((0#32).toNat + 1) * _ ≤ _; decide)

abbrev adm : (pcfg0 (F := F)).Adm := ⟨tbl m, ok_tbl m⟩
abbrev cfgM : Pipeline.Cfg sig Λ₀ := cfg0 (adm m)

end Cert.KernelIdeal.Hand

end
-- ==== Proof.KiBody.lean ====
import proofs.«173310_j25847113187695_2_alg».proof.Proof.Gen.KernelIdeal.Launch
import proofs.«173310_j25847113187695_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The kernel body on any whole staging memrefs

The body reads the two batch rows' activations, the shared weight, the two gathered class weights and bias rows, and
stores one 256 x 128 slab per batch row into the output block: the two stores are the pieces the run finds. -/

set_option maxHeartbeats 4000000 in
noncomputable def kernelRun (c : Dev nD) (i : grid0.Coords) (arg1 : Memref sig .tc .smem S64 .i32) (harg1 : arg1.IsWhole)
    (arg2 : Memref sig .tc .vmem S2x256x1152 .f32) (harg2 : arg2.IsWhole) (arg3 : Memref sig .tc .vmem S1152x32 .f32) (harg3 : arg3.IsWhole)
    (arg4 : Memref sig .tc .vmem S1x1152x32 .f32) (harg4 : arg4.IsWhole) (arg5 : Memref sig .tc .vmem S1x1152x32 .f32) (harg5 : arg5.IsWhole)
    (arg6 : Memref sig .tc .vmem S1x1x32 .f32) (harg6 : arg6.IsWhole) (arg7 : Memref sig .tc .vmem S1x1x32 .f32) (harg7 : arg7.IsWhole)
    (arg8 : Memref sig .tc .vmem S2x256x128 .f32) (harg8 : arg8.IsWhole)
    (x0 : Vec F S2x256x1152 .f32) (x1 : Vec F S1152x32 .f32) (x2 : Vec F S1x1152x32 .f32) (x3 : Vec F S1x1152x32 .f32)
    (x4 : Vec F S1x1x32 .f32) (x5 : Vec F S1x1x32 .f32) :
    { L : List (View.Piece (Elt F) S2x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L)) -∗ K ⟨⟩))
          ⊢ wp frame (wpE (defs₀ (F := F)) Variants.none c none) E (cc0__twins_kernel i arg1 harg1 arg2 harg2 arg3 harg3 arg4 harg4 arg5 harg5 arg6 harg6 arg7 harg7 arg8 harg8) K } := by
  refine ⟨?_, fun E K => ?run⟩
  case run =>
    simp only [cc0__twins_kernel_eq_skeleton]; unfold cc0__twins_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Hand

end
-- ==== Proof.KiDat.lean ====
import proofs.«173310_j25847113187695_2_alg».proof.Proof.Gen.KernelIdeal.Launch
import proofs.«173310_j25847113187695_2_alg».proof.Proof.Gen.KernelIdeal.Skeleton
import Idealize.ShloMosaic.Lib.Pipeline.FrameSuffix
import Idealize.ShloMosaic.Lib.Pipeline.FrameBody
import Idealize.ShloMosaic.Lib.StableHlo.Run
import proofs.«173310_j25847113187695_2_alg».proof.Proof.KiEntry
import proofs.«173310_j25847113187695_2_alg».proof.Proof.KiBody
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks and the staging memrefs at a point -/

/-- Window `w`'s block at point `t`, read off its array as the region finds it; for the class weight and bias windows the
    block's position is the table's word at the point's batch row. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin (cfgM m).N) : Memref sig .tc .vmem S2x256x1152 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1152x32 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1152x32 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x1152x32 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x1x32 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x1x32 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S2x256x128 .f32 := spec0_6.stage ((cfgM m).slots t 6)
abbrev hs6 (t : Fin (cfgM m).N) : (ms6 m t).IsWhole := hstage0_6 (((cfgM m).slots t 6).cast nbuf0_6)

/-- The body at point `t`, on what the pipeline calls it with. -/
abbrev bodyAt (t : Fin (cfgM m).N) : Prog (TpuEff nD τ sig (Elt F) Λ₀ .tc) PUnit :=
  cc0__twins_kernel (grid0.coords t) (Memref.whole main_v0) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t)

/-! ## What the body leaves in the output block -/

abbrev VO : View sig .tc .vmem S2x256x128 .f32 := (Memref.whole cc0_stg6_0 : Memref sig .tc .vmem S2x256x128 .f32).view

/-- The two stores, one 256 x 128 slab per batch row, tile the 2 x 256 x 128 block. -/
theorem cover (c : Dev nD) (i : grid0.Coords) (arg1 : Memref sig .tc .smem S64 .i32) (harg1 : arg1.IsWhole)
    (arg2 : Memref sig .tc .vmem S2x256x1152 .f32) (harg2 : arg2.IsWhole) (arg3 : Memref sig .tc .vmem S1152x32 .f32) (harg3 : arg3.IsWhole)
    (arg4 : Memref sig .tc .vmem S1x1152x32 .f32) (harg4 : arg4.IsWhole) (arg5 : Memref sig .tc .vmem S1x1152x32 .f32) (harg5 : arg5.IsWhole)
    (arg6 : Memref sig .tc .vmem S1x1x32 .f32) (harg6 : arg6.IsWhole) (arg7 : Memref sig .tc .vmem S1x1x32 .f32) (harg7 : arg7.IsWhole)
    (arg8 : Memref sig .tc .vmem S2x256x128 .f32) (harg8 : arg8.IsWhole)
    (x0 : Vec F S2x256x1152 .f32) (x1 : Vec F S1152x32 .f32) (x2 : Vec F S1x1152x32 .f32) (x3 : Vec F S1x1152x32 .f32)
    (x4 : Vec F S1x1x32 .f32) (x5 : Vec F S1x1x32 .f32) (y : S2x256x128.Idx) :
    ∃ pc ∈ (kernelRun c i arg1 harg1 arg2 harg2 arg3 harg3 arg4 harg4 arg5 harg5 arg6 harg6 arg7 harg7 arg8 harg8 x0 x1 x2 x3 x4 x5).1, y ∈ pc.1.set :=
  View.cover_of_tiledL (kernelRun c i arg1 harg1 arg2 harg2 arg3 harg3 arg4 harg4 arg5 harg5 arg6 harg6 arg7 harg7 arg8 harg8 x0 x1 x2 x3 x4 x5).1 S1x256x128.size (by sl_kernel_rfl) y

/-- The output block after the body: the stores read back. -/
def outOf (c : Dev nD) (i : grid0.Coords) (arg1 : Memref sig .tc .smem S64 .i32) (harg1 : arg1.IsWhole)
    (arg2 : Memref sig .tc .vmem S2x256x1152 .f32) (harg2 : arg2.IsWhole) (arg3 : Memref sig .tc .vmem S1152x32 .f32) (harg3 : arg3.IsWhole)
    (arg4 : Memref sig .tc .vmem S1x1152x32 .f32) (harg4 : arg4.IsWhole) (arg5 : Memref sig .tc .vmem S1x1152x32 .f32) (harg5 : arg5.IsWhole)
    (arg6 : Memref sig .tc .vmem S1x1x32 .f32) (harg6 : arg6.IsWhole) (arg7 : Memref sig .tc .vmem S1x1x32 .f32) (harg7 : arg7.IsWhole)
    (arg8 : Memref sig .tc .vmem S2x256x128 .f32) (harg8 : arg8.IsWhole)
    (x0 : Vec F S2x256x1152 .f32) (x1 : Vec F S1152x32 .f32) (x2 : Vec F S1x1152x32 .f32) (x3 : Vec F S1x1152x32 .f32)
    (x4 : Vec F S1x1x32 .f32) (x5 : Vec F S1x1x32 .f32) : Vec F S2x256x128 .f32 :=
  VO.read (Elt F) (VO.writes (Elt F) VO.junk (kernelRun c i arg1 harg1 arg2 harg2 arg3 harg3 arg4 harg4 arg5 harg5 arg6 harg6 arg7 harg7 arg8 harg8 x0 x1 x2 x3 x4 x5).1)

def outsAt (c : Dev nD) (t : Fin (cfgM m).N) : Vec F S2x256x128 .f32 :=
  outOf c (grid0.coords t) (Memref.whole main_v0) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (iblk m c 0 t) (iblk m c 1 t) (iblk m c 2 t) (iblk m c 3 t) (iblk m c 4 t) (iblk m c 5 t)

/-! ## The proof data -/

/-- The arrays as the region finds them; each input's buffer keeps its block, the output's holds the body's result; the
    invariant is the table's half and the scoped rest, untouched by the body; the class weight table and the bias table
    are each read through two windows, which split the array between them. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t
  Φ _ := iprop(Pipeline.prefHeld pre0 c (fun _ => fullShare.right) (tbl m) ∗ Pipeline.scopedRest spec0 c)
  q w := match w with
    | ⟨0, _⟩ => fullShare
    | ⟨1, _⟩ => fullShare
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = iblk m c 5 t := by dsimp only [dats]; try rfl
theorem after6 (c : Dev nD) (t : Fin (cfgM m).N) : (dats m 0 c).after 6 t = outsAt m c t := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d
theorem before2 (c : Dev nD) (t : Fin (cfgM m).N) (d) : (dats m 0 c).before 2 t d = iblk m c 2 t :=
  before2_of m (dats m 0 c) (A_eq m c 2) (after2 m c) t d
theorem before3 (c : Dev nD) (t : Fin (cfgM m).N) (d) : (dats m 0 c).before 3 t d = iblk m c 3 t :=
  before3_of m (dats m 0 c) (A_eq m c 3) (after3 m c) t d
theorem before4 (c : Dev nD) (t : Fin (cfgM m).N) (d) : (dats m 0 c).before 4 t d = iblk m c 4 t :=
  before4_of m (dats m 0 c) (A_eq m c 4) (after4 m c) t d
theorem before5 (c : Dev nD) (t : Fin (cfgM m).N) (d) : (dats m 0 c).before 5 t d = iblk m c 5 t :=
  before5_of m (dats m 0 c) (A_eq m c 5) (after5 m c) t d

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  unfold outsAt
  unfold outOf
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover c _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiLaunch.lean ====
import proofs.«173310_j25847113187695_2_alg».proof.Proof.Gen.KernelIdeal.Launch
import proofs.«173310_j25847113187695_2_alg».proof.Proof.Gen.KernelIdeal.Skeleton
import Idealize.ShloMosaic.Lib.Pipeline.FrameSuffix
import Idealize.ShloMosaic.Lib.Pipeline.FrameBody
import Idealize.ShloMosaic.Lib.StableHlo.Run
import proofs.«173310_j25847113187695_2_alg».proof.Proof.KiDat
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window, and the buffers behind them -/

/-- The pipeline's arrays at contents `Fn`: the activations, the transposed shared weight and the output whole; the class weight
    table and the reshaped bias table each as two halves, one per window reading it. -/
theorem arrays_chain (c : Dev nD) (Fn : (w : Fin (cfgM m).W) → Buf (Elt F) (((cfgM m).win w).arr.view.loc (c.tc : Thread nD τ))) :
    ((dats m 0 c).arrays Fn : sProp 𝕄) = iprop(
      (((c.tc : Thread nD τ).loc (Pipeline.arrRef spec0 (0 : Fin 7))) ↦{fullShare} Fn 0)
      ∗ (((c.tc : Thread nD τ).loc (Pipeline.arrRef spec0 (1 : Fin 7))) ↦{fullShare} Fn 1)
      ∗ (((c.tc : Thread nD τ).loc (Pipeline.arrRef spec0 (2 : Fin 7))) ↦{fullShare.left} Fn 2)
      ∗ (((c.tc : Thread nD τ).loc (Pipeline.arrRef spec0 (3 : Fin 7))) ↦{fullShare.right} Fn 3)
      ∗ (((c.tc : Thread nD τ).loc (Pipeline.arrRef spec0 (4 : Fin 7))) ↦{fullShare.left} Fn 4)
      ∗ (((c.tc : Thread nD τ).loc (Pipeline.arrRef spec0 (5 : Fin 7))) ↦{fullShare.right} Fn 5)
      ∗ (((c.tc : Thread nD τ).loc (Pipeline.arrRef spec0 (6 : Fin 7))) ↦{fullShare} Fn 6)) := by
  have h : ((dats m 0 c).arrays Fn : sProp 𝕄) = bigSep Finset.univ fun w : Fin 7 =>
      (((c.tc : Thread nD τ).loc (Pipeline.arrRef spec0 w)) ↦{(dats m 0 c).share w} Fn w : sProp 𝕄) := by
    unfold Dat.arrays
    exact bigSep_congr fun w _ => by rw [(arr_whole0 w).set_eq_univ]
  rw [h, bigSep_W0]
  rfl

/-- The five distinct buffers behind the seven windows. -/
theorem arrBufs_chain (c : Dev nD) (Vv : (b : Ref sig .tc) → Buf (Elt F) ((c.tc : Thread nD τ).loc b)) :
    (Pipeline.arrBufs spec0 c Vv : sProp 𝕄) = iprop(
      (((c.tc : Thread nD τ).loc main_arg0) ↦{fullShare} Vv main_arg0) ∗ (((c.tc : Thread nD τ).loc main_v1) ↦{fullShare} Vv main_v1)
      ∗ (((c.tc : Thread nD τ).loc main_arg3) ↦{fullShare} Vv main_arg3) ∗ (((c.tc : Thread nD τ).loc main_v2) ↦{fullShare} Vv main_v2)
      ∗ (((c.tc : Thread nD τ).loc main_v3) ↦{fullShare} Vv main_v3)) := by
  unfold Pipeline.arrBufs
  rw [bigSep_eq_bigSepL_of_eq [main_arg0, main_v1, main_arg3, main_v2, main_v3] (by decide) (by decide)]
  rfl

/-- The buffers behind the arrays make the pipeline's arrays at entry: a table read through two windows is split in halves. -/
theorem hsplit (c : Dev nD) : (Pipeline.arrBufs (cfgM m).spec c (V m c) : sProp 𝕄) ⊢ (dats m 0 c).arrays ((dats m 0 c).arrAt · 0) := by
  rw [arrays_chain, show (Pipeline.arrBufs (cfgM m).spec c (V m c) : sProp 𝕄) = Pipeline.arrBufs spec0 c (V m c) from rfl, arrBufs_chain]
  iintro ⟨H0, H1, H3, H2, H6⟩
  ihave ⟨H3a, H3b⟩ := (pointsTo_share (PosShare.mem_left_op_right fullShare)).1 $$ H3
  ihave ⟨H2a, H2b⟩ := (pointsTo_share (PosShare.mem_left_op_right fullShare)).1 $$ H2
  isplitl [H0]; · iexact H0
  isplitl [H1]; · iexact H1
  isplitl [H3a]; · iexact H3a
  isplitl [H3b]; · iexact H3b
  isplitl [H2a]; · iexact H2a
  isplitl [H2b]; · iexact H2b
  iexact H6

/-! ## The argument arrays at the region's entry -/

theorem V_arg0 (c : Dev nD) : V m c main_arg0 = m ((c.tc : Thread nD τ).loc main_arg0) := by
  dsimp only [V]
  simp only [hostOps0, hostOps0_1, hostOps0_2, List.flatten_cons, List.flatten_nil, List.append_nil, List.cons_append, List.nil_append]
  first | (after_results; rfl) | rfl
theorem V_arg1 (c : Dev nD) : V m c main_arg1 = m ((c.tc : Thread nD τ).loc main_arg1) := by
  dsimp only [V]
  simp only [hostOps0, hostOps0_1, hostOps0_2, List.flatten_cons, List.flatten_nil, List.append_nil, List.cons_append, List.nil_append]
  first | (after_results; rfl) | rfl
theorem V_arg2 (c : Dev nD) : V m c main_arg2 = m ((c.tc : Thread nD τ).loc main_arg2) := by
  dsimp only [V]
  simp only [hostOps0, hostOps0_1, hostOps0_2, List.flatten_cons, List.flatten_nil, List.append_nil, List.cons_append, List.nil_append]
  first | (after_results; rfl) | rfl
theorem V_arg3 (c : Dev nD) : V m c main_arg3 = m ((c.tc : Thread nD τ).loc main_arg3) := by
  dsimp only [V]
  simp only [hostOps0, hostOps0_1, hostOps0_2, List.flatten_cons, List.flatten_nil, List.append_nil, List.cons_append, List.nil_append]
  first | (after_results; rfl) | rfl
theorem V_arg4 (c : Dev nD) : V m c main_arg4 = m ((c.tc : Thread nD τ).loc main_arg4) := by
  dsimp only [V]
  simp only [hostOps0, hostOps0_1, hostOps0_2, List.flatten_cons, List.flatten_nil, List.append_nil, List.cons_append, List.nil_append]
  first | (after_results; rfl) | rfl

/-! ## The two slices after the region -/

/-- The buffers' contents at the region's entry, as a valuation. -/
abbrev V₀ (c : Dev nD) : Valuation τ sig (Elt F) :=
  StableHlo.after (List.flatten [hostOps0, hostOps0_1, hostOps0_2]) (fun b => m (c, b))

/-- The contents at the region's exit: the padded output at what the write-backs left, everything else as at entry. -/
def Wx (c : Dev nD) : Valuation τ sig (Elt F) :=
  Function.update (V₀ m c) (Proc.devRef .tc main_v3) ((dats m 0 c).arrAt 6 (cfgM m).N)

theorem Wx_v3 (c : Dev nD) : Wx m c (Proc.devRef .tc main_v3) = (dats m 0 c).arrAt 6 (cfgM m).N := by
  unfold Wx; exact Function.update_self ..

theorem Wx_ne (c : Dev nD) (b : Ref sig .tc) (h : b ≠ main_v3) : Wx m c (Proc.devRef .tc b) = V m c b := by
  unfold Wx; exact Function.update_of_ne (StableHlo.devRef_ne_of_ne h) ..

/-- The three buffers the slices touch: the padded output they read, the two results they write. -/
abbrev S3 : Finset (DevRef τ sig) := {Proc.devRef .tc main_v3, Proc.devRef .tc main_v4, Proc.devRef .tc main_v5}

theorem held_S3 (c : Dev nD) (Wv : Valuation τ sig (Elt F)) :
    (StableHlo.held (c.tc : Thread nD τ) S3 Wv : sProp 𝕄)
      = iprop((((c.tc : Thread nD τ).loc main_v3) ↦{fullShare} Wv (Proc.devRef .tc main_v3))
          ∗ (((c.tc : Thread nD τ).loc main_v4) ↦{fullShare} Wv (Proc.devRef .tc main_v4))
          ∗ (((c.tc : Thread nD τ).loc main_v5) ↦{fullShare} Wv (Proc.devRef .tc main_v5))) := by
  unfold StableHlo.held
  rw [bigSep_eq_bigSepL_of_eq [Proc.devRef .tc main_v3, Proc.devRef .tc main_v4, Proc.devRef .tc main_v5] (by decide) (by decide)]
  rfl

/-- What every buffer no window stages holds at the end: the two results at the slices of the padded output, the others as at entry. -/
def Vf (c : Dev nD) (b : Ref sig .tc) : Buf (Elt F) ((c.tc : Thread nD τ).loc b) :=
  StableHlo.after hostOps1 (Wx m c) (Proc.devRef .tc b)

theorem hostOps1_writes (b : Ref sig .tc) (h4 : b ≠ main_v4) (h5 : b ≠ main_v5) :
    ∀ op ∈ (hostOps1 : List (HloOp τ sig (Elt F))), Proc.devRef .tc b ∉ op.writes := by
  intro op hop
  simp only [hostOps1, List.mem_cons, List.mem_singleton, List.not_mem_nil, or_false] at hop
  rcases hop with rfl | rfl
  · simp only [StableHlo.unary_writes, Finset.mem_singleton]; exact StableHlo.devRef_ne_of_ne h4
  · simp only [StableHlo.unary_writes, Finset.mem_singleton]; exact StableHlo.devRef_ne_of_ne h5

theorem Vf_keep (c : Dev nD) (b : Ref sig .tc) (h3 : b ≠ main_v3) (h4 : b ≠ main_v4) (h5 : b ≠ main_v5) : Vf m c b = V m c b := by
  unfold Vf
  rw [StableHlo.after_of_forall_not_mem _ _ (hostOps1_writes b h4 h5)]
  exact Wx_ne m c b h3

theorem after_v3 (c : Dev nD) : StableHlo.after hostOps1 (Wx m c) (Proc.devRef .tc main_v3) = (dats m 0 c).arrAt 6 (cfgM m).N := by
  rw [StableHlo.after_of_forall_not_mem _ _ (hostOps1_writes main_v3 (by decide) (by decide))]
  exact Wx_v3 m c

theorem hostOps1_bufs : ∀ ops ∈ ([hostOps1] : List (List (HloOp τ sig (Elt F)))), ∀ op ∈ ops, op.bufs ⊆ S3 := by
  intro ops hops op hop
  simp only [List.mem_singleton] at hops
  subst hops
  simp only [hostOps1, List.mem_cons, List.mem_singleton, List.not_mem_nil, or_false] at hop
  rcases hop with rfl | rfl
  · rw [StableHlo.unary_bufs]; decide
  · rw [StableHlo.unary_bufs]; decide

theorem hostOps1_fresh' : ∀ ops ∈ ([hostOps1] : List (List (HloOp τ sig (Elt F)))), ∀ op ∈ ops, op.fresh = ∅ := by
  intro ops hops op hop
  simp only [List.mem_singleton] at hops
  subst hops
  exact (List.forall_iff_forall_mem.mp hostOps1_fresh) op hop

set_option backward.isDefEq.respectTransparency.types false in
/-- From the region's exit the two slices run, reading the padded output and writing the two results; the arrays come back as
    they were and the buffers no window stages at their final contents. -/
theorem htail (c : Dev nD) (Q' : PUnit → sProp 𝕄) :
    iprop((iprop((dats m 0 c).arrays ((dats m 0 c).arrAt · (cfgM m).N) ∗ Pipeline.unscopedRestP pre0 spec0 c (Vf m c)) -∗ Q' ⟨⟩)
        ∗ boundary (c.tc : Thread nD τ) ∗ (dats m 0 c).arrays ((dats m 0 c).arrAt · (cfgM m).N) ∗ Pipeline.unscopedRestP pre0 spec0 c (V m c))
      ⊢ wp frame (wpE (Pipeline.defs pcfgs (defs₀ (F := F))) (Variants.lift Variants.none) (c.tc : Thread nD τ) none) Set.univ
          (Pipeline.chain [StableHlo.seq hostOps1]) Q' := by
  rw [arrays_chain, unscopedRestP0_eq, unscopedRestP0_eq,
    Vf_keep m c main_arg1 (by decide) (by decide) (by decide),
    Vf_keep m c main_arg2 (by decide) (by decide) (by decide),
    Vf_keep m c main_arg4 (by decide) (by decide) (by decide),
    Vf_keep m c main_c (by decide) (by decide) (by decide),
    Vf_keep m c main_c_0 (by decide) (by decide) (by decide),
    Vf_keep m c main_call0_v0 (by decide) (by decide) (by decide),
    Vf_keep m c main_call0_v1 (by decide) (by decide) (by decide),
    Vf_keep m c main_call0_v2 (by decide) (by decide) (by decide),
    Vf_keep m c main_call0_v3 (by decide) (by decide) (by decide),
    Vf_keep m c main_call0_v4 (by decide) (by decide) (by decide)]
  have hW := Pipeline.wp_seqs_then (Ix := Unit) (Name := ℕ) (U := UR sig nD τ) (Lvl := ℕ) pcfgs (defs₀ (F := F)) Variants.none c S3 [] (K := Q') [hostOps1] hostOps1_bufs hostOps1_fresh' (Wx m c)
  rw [held_S3, held_S3, List.flatten_cons, List.flatten_nil, List.append_nil, after_v3, Wx_v3, Wx_ne m c main_v4 (by decide), Wx_ne m c main_v5 (by decide)] at hW
  iintro ⟨Hk, Hb, ⟨A0, A1, A2, A3, A4, A5, A6⟩, ⟨R1, R2, R4, Rc, Rc0, Ra, Rb, Rc2, Rd, Re, Rv4, Rv5⟩⟩
  iapply hW $$ [Hb A6 Rv4 Rv5]
  · isplitl [Hb]; · iexact Hb
    isplitl [A6]; · iexact A6
    isplitl [Rv4]; · iexact Rv4
    iexact Rv5
  iintro ⟨Hb, A6, Rv4, Rv5⟩
  rw [Pipeline.chain_nil, wp_pure]
  imodintro
  iapply Hk
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [R1]; · iexact R1
  isplitl [R2]; · iexact R2
  isplitl [R4]; · iexact R4
  isplitl [Rc]; · iexact Rc
  isplitl [Rc0]; · iexact Rc0
  isplitl [Ra]; · iexact Ra
  isplitl [Rb]; · iexact Rb
  isplitl [Rc2]; · iexact Rc2
  isplitl [Rd]; · iexact Rd
  isplitl [Re]; · iexact Re
  isplitl [Rv4]; · iexact Rv4
  iexact Rv5

/-! ## The run -/

/-- Where every weakly fair execution ends: the two results at the slices of the padded output, the arguments as launched. -/
def QC : PUnit × MemSt nD τ sig (Elt F) → Prop := fun r =>
  ∀ c : Dev nD,
    r.2.mem ((c.tc : Thread nD τ).loc main_v4) = Vf m c main_v4
    ∧ r.2.mem ((c.tc : Thread nD τ).loc main_v5) = Vf m c main_v5
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)

set_option backward.isDefEq.respectTransparency.types false in
set_option maxHeartbeats 4000000 in
/-- From any launch memory with zero counters every weakly fair execution terminates, faults nowhere, and ends in `QC`: the host
    lines, the region over its 32 points with the clamped labels as its table, then the two slices. -/
theorem run_main : θ_run (defs (F := F)) (onTc (τ := τ) (main (F := F))) (s₀ m ρ) (QC m) :=
  Pipeline.θ_run_region_noSem_pf_tail pcfgs (fun _ => adm m) (dats m) () (cellOf_inj (F := F) fun _ => adm m) (0 : Fin 1)
    winFacts₀0 preFacts0 emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells (Pipeline.pin pcfgs fun _ => adm m) (cellOf_inj (F := F) fun _ => adm m))
      (Pipeline.launchToks (Pipeline.pin pcfgs fun _ => adm m) (cellOf_inj (F := F) fun _ => adm m)))
    (hu₀ := .rfl)
    (V := V m) (hmain := hmain m Variants.none)
    (hsplit := hsplit m) (hpf := V_pre m)
    (X := fun _ => iprop(emp)) (Y := fun _ => iprop(emp))
    (Z := fun c => Pipeline.unscopedRestP pre0 spec0 c (V m c)) (Z' := fun c => Pipeline.unscopedRestP pre0 spec0 c (Vf m c))
    (hX := fun c => by
      iintro H; isplitr; · iempintro
      iexact H)
    (hin := fun c => by
      rw [show (dats m 0 c).Φ 0 = iprop(Pipeline.prefHeld pre0 c (fun _ => fullShare.right) (tbl m) ∗ Pipeline.scopedRest spec0 c) from rfl]
      iintro ⟨-, Ht, Hr⟩
      isplitl [Ht]; · iexact Ht
      iexact Hr)
    (hout := fun c => by
      rw [show (dats m 0 c).Φ (Fin.last (cfgM m).N) = iprop(Pipeline.prefHeld pre0 c (fun _ => fullShare.right) (tbl m) ∗ Pipeline.scopedRest spec0 c) from rfl]
      iintro ⟨-, Hr⟩
      isplitr; · iempintro
      iexact Hr)
    (htail := htail m)
    (QY := fun c s => ∀ b ∈ Pipeline.restRefsP sig pre0 spec0, s.mem ((c.tc : Thread nD τ).loc b) = Vf m c b)
    (hY := fun c s' => by
      iintro ⟨-, HU, HSI⟩
      unfold Pipeline.unscopedRestP
      imodintro
      iapply (pointsTo_read_all (Pipeline.restRefsP sig pre0 spec0) (fun b => (c.tc : Thread nD τ).loc b) (Vf m c) s')
      isplitl [HU] <;> iassumption)
    (hQ := fun s h c => ⟨(h c).2.2 main_v4 (by decide), (h c).2.2 main_v5 (by decide),
      ((h c).1 0).trans (((dats m 0 c).arrAt_in 0 rfl _).trans ((A_eq m c 0).trans (V_arg0 m c))),
      ((h c).2.2 main_arg1 (by decide)).trans ((Vf_keep m c main_arg1 (by decide) (by decide) (by decide)).trans (V_arg1 m c)),
      ((h c).2.2 main_arg2 (by decide)).trans ((Vf_keep m c main_arg2 (by decide) (by decide) (by decide)).trans (V_arg2 m c)),
      ((h c).1 2).trans (((dats m 0 c).arrAt_in 2 rfl _).trans ((A_eq m c 2).trans (V_arg3 m c))),
      ((h c).2.2 main_arg4 (by decide)).trans ((Vf_keep m c main_arg4 (by decide) (by decide) (by decide)).trans (V_arg4 m c))⟩)

/-- The frame: every weakly fair execution terminates, nothing faults, and the five argument arrays end as launched. It holds of
    every launch memory, since the labels are clamped before any class is looked up. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2.2) (run_main m ρ)

end Cert.KernelIdeal.Hand

end
-- ==== Proof.KiPay.lean ====
/-
  The kernel body's arithmetic read at an index, at the ideal values.
-/
import proofs.«173310_j25847113187695_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx

/-! ## The matrix product of the body read at (token, lane)

The body multiplies a [256, 1152] block of activations by a [1152, 64] matrix whose first 32 columns are the shared weight and
whose last 32 are the class's weight slab; at the ideal values the product at (t, l) is the sum over the 1152 hidden channels. -/

theorem mm_lhs_0 (i : S256x64.Idx) (q : dot_S256x1152_S1152x64_S256x64_1_0_0_1_n_n.contr.Idx) : (dot_S256x1152_S1152x64_S256x64_1_0_0_1_n_n.lhsIdx i q 0).val = (i 0).val := by
  unfold DotDims.lhsIdx
  rw [dif_neg (show ¬(0 : Fin S256x1152.rank) ∈ dot_S256x1152_S1152x64_S256x64_1_0_0_1_n_n.lhsBatch by decide), dif_pos (show (0 : Fin S256x1152.rank) ∈ dot_S256x1152_S1152x64_S256x64_1_0_0_1_n_n.lhsNonContracting by decide)]
  rfl
theorem mm_lhs_1 (i : S256x64.Idx) (q : dot_S256x1152_S1152x64_S256x64_1_0_0_1_n_n.contr.Idx) : (dot_S256x1152_S1152x64_S256x64_1_0_0_1_n_n.lhsIdx i q 1).val = (q ⟨0, by decide⟩).val :=
  dot_S256x1152_S1152x64_S256x64_1_0_0_1_n_n.lhsIdx_val_of_single rfl i q
theorem mm_rhs_0 (i : S256x64.Idx) (q : dot_S256x1152_S1152x64_S256x64_1_0_0_1_n_n.contr.Idx) : (dot_S256x1152_S1152x64_S256x64_1_0_0_1_n_n.rhsIdx i q 0).val = (q ⟨0, by decide⟩).val :=
  dot_S256x1152_S1152x64_S256x64_1_0_0_1_n_n.rhsIdx_val_of_single rfl i q
theorem mm_rhs_1 (i : S256x64.Idx) (q : dot_S256x1152_S1152x64_S256x64_1_0_0_1_n_n.contr.Idx) : (dot_S256x1152_S1152x64_S256x64_1_0_0_1_n_n.rhsIdx i q 1).val = (i 1).val := by
  unfold DotDims.rhsIdx
  rw [dif_neg (show ¬(1 : Fin S1152x64.rank) ∈ dot_S256x1152_S1152x64_S256x64_1_0_0_1_n_n.rhsBatch by decide), dif_pos (show (1 : Fin S1152x64.rank) ∈ dot_S256x1152_S1152x64_S256x64_1_0_0_1_n_n.rhsNonContracting by decide)]
  rfl

/-- The body's matrix product into a zero accumulator, at (t, l): the sum over the hidden channels. -/
theorem mm_apply (x : FVec Ideal S256x1152 .bf16) (w : FVec Ideal S1152x64 .bf16) (t : Fin 256) (l : Fin 64) :
    matmul dot_S256x1152_S1152x64_S256x64_1_0_0_1_n_n none x w (constant S256x64 .f32 0x00000000#32) (ix2 t l) = ∑ k : Fin 1152, x (ix2 t k) * w (ix2 k l) := by
  simp only [matmul]
  rw [Ideal.matmul_constant_zero_apply, ← Equiv.sum_comp (contrEquiv1 dot_S256x1152_S1152x64_S256x64_1_0_0_1_n_n 1152 rfl rfl).symm]
  refine Finset.sum_congr rfl fun k _ => ?_
  have hk := contrEquiv1_symm_val dot_S256x1152_S1152x64_S256x64_1_0_0_1_n_n 1152 rfl rfl k
  have el : dot_S256x1152_S1152x64_S256x64_1_0_0_1_n_n.lhsIdx (ix2 t l) ((contrEquiv1 dot_S256x1152_S1152x64_S256x64_1_0_0_1_n_n 1152 rfl rfl).symm k) = ix2 t k := funext fun a => Fin.ext (by
    match a with
    | ⟨0, _⟩ => exact mm_lhs_0 _ _
    | ⟨1, _⟩ => exact (mm_lhs_1 _ _).trans hk)
  have er : dot_S256x1152_S1152x64_S256x64_1_0_0_1_n_n.rhsIdx (ix2 t l) ((contrEquiv1 dot_S256x1152_S1152x64_S256x64_1_0_0_1_n_n 1152 rfl rfl).symm k) = ix2 k l := funext fun a => Fin.ext (by
    match a with
    | ⟨0, _⟩ => exact (mm_rhs_0 _ _).trans hk
    | ⟨1, _⟩ => exact mm_rhs_1 _ _)
  rw [el, er]

/-! ## The body's concatenations read at a lane -/

/-- Lane o of a 64-lane row, for o below 32: the first half. -/
abbrev laneL (o : Fin 32) : Fin 64 := ⟨o.val, by omega⟩
/-- Lane 32 + o of a 64-lane row: the second half. -/
abbrev laneR (o : Fin 32) : Fin 64 := ⟨32 + o.val, by omega⟩
/-- A lane below 64 of the 128-lane output row. -/
abbrev lane128 (l : Fin 64) : Fin 128 := ⟨l.val, by omega⟩

/-- The weight matrix's first 32 columns are the shared weight's. -/
theorem rhs_left (a b : FVec Ideal S1152x32 .bf16) (k : Fin 1152) (o : Fin 32) :
    concatenate S1152x64 1 [⟨S1152x32, a⟩, ⟨S1152x32, b⟩] concatenates_S1152x32_S1152x32_S1152x64_d1 (ix2 k (laneL o)) = a (ix2 k o) :=
  concatenate_pair_apply_left (1 : Fin S1152x64.rank) a b concatenates_S1152x32_S1152x32_S1152x64_d1 (ix2 k (laneL o)) rfl (ix2 k o)
    (fun c => match c with | ⟨0, _⟩ => rfl | ⟨1, _⟩ => rfl)

/-- Its last 32 columns are the class's weight slab's. -/
theorem rhs_right (a b : FVec Ideal S1152x32 .bf16) (k : Fin 1152) (o : Fin 32) :
    concatenate S1152x64 1 [⟨S1152x32, a⟩, ⟨S1152x32, b⟩] concatenates_S1152x32_S1152x32_S1152x64_d1 (ix2 k (laneR o)) = b (ix2 k o) :=
  concatenate_pair_apply_right (1 : Fin S1152x64.rank) a b concatenates_S1152x32_S1152x32_S1152x64_d1 (ix2 k (laneR o)) rfl rfl (ix2 k o)
    (fun c => match c with | ⟨0, _⟩ => fun _ => rfl | ⟨1, _⟩ => fun h => absurd rfl h)
    (show o.val + 32 = 32 + o.val from Nat.add_comm _ _)

/-- The bias row's first 32 lanes are the zero padding's. -/
theorem bias_left (a b : FVec Ideal S1x32 .f32) (o : Fin 32) :
    concatenate S1x64 1 [⟨S1x32, a⟩, ⟨S1x32, b⟩] concatenates_S1x32_S1x32_S1x64_d1 (ix2 (0 : Fin 1) (laneL o)) = a (ix2 (0 : Fin 1) o) :=
  concatenate_pair_apply_left (1 : Fin S1x64.rank) a b concatenates_S1x32_S1x32_S1x64_d1 (ix2 (0 : Fin 1) (laneL o)) rfl (ix2 (0 : Fin 1) o)
    (fun c => match c with | ⟨0, _⟩ => rfl | ⟨1, _⟩ => rfl)

/-- Its last 32 lanes are the class's bias row's. -/
theorem bias_right (a b : FVec Ideal S1x32 .f32) (o : Fin 32) :
    concatenate S1x64 1 [⟨S1x32, a⟩, ⟨S1x32, b⟩] concatenates_S1x32_S1x32_S1x64_d1 (ix2 (0 : Fin 1) (laneR o)) = b (ix2 (0 : Fin 1) o) :=
  concatenate_pair_apply_right (1 : Fin S1x64.rank) a b concatenates_S1x32_S1x32_S1x64_d1 (ix2 (0 : Fin 1) (laneR o)) rfl rfl (ix2 (0 : Fin 1) o)
    (fun c => match c with | ⟨0, _⟩ => fun _ => rfl | ⟨1, _⟩ => fun h => absurd rfl h)
    (show o.val + 32 = 32 + o.val from Nat.add_comm _ _)

/-- The output row's first 64 lanes are the product-plus-bias's; the other 64 are padding, which nothing downstream reads. -/
theorem out_left (a b : FVec Ideal S256x64 .f32) (t : Fin 256) (l : Fin 64) :
    concatenate S256x128 1 [⟨S256x64, a⟩, ⟨S256x64, b⟩] concatenates_S256x64_S256x64_S256x128_d1 (ix2 t (lane128 l)) = a (ix2 t l) :=
  concatenate_pair_apply_left (1 : Fin S256x128.rank) a b concatenates_S256x64_S256x64_S256x128_d1 (ix2 t (lane128 l)) rfl (ix2 t l)
    (fun c => match c with | ⟨0, _⟩ => rfl | ⟨1, _⟩ => rfl)

/-! ## The operands at an index -/

/-- A batch row's activations as the product reads them: the [1, 256, 1152] load, its unit axis dropped, narrowed (the identity at
    the ideal values). -/
theorem act_apply (v : Vec Ideal S1x256x1152 .f32) (t : Fin 256) (k : Fin 1152) :
    (truncf .bf16 (shapeCast S256x1152 v shapeCasts_S1x256x1152_S256x1152) bitsLt_bf16_f32 : FVec Ideal S256x1152 .bf16) (ix2 t k)
      = v (ix3 (0 : Fin 1) t k) :=
  shapeCast_1ab_ab_apply v shapeCasts_S1x256x1152_S256x1152 t k

/-- The shared weight as the product reads it. -/
theorem jw_apply (v0 : Vec Ideal S1152x32 .f32) (k : Fin 1152) (o : Fin 32) : k0_pay2 (F := Ideal) v0 (ix2 k o) = v0 (ix2 k o) := by
  unfold k0_pay2
  show shapeCast S1152x32 v0 shapeCasts_S1152x32_S1152x32 (ix2 k o) = v0 (ix2 k o)
  rw [shapeCast_self]

/-- A class's weight slab as the product reads it: the [1, 1152, 32] load with its unit axis dropped. -/
theorem kw_apply (v : Vec Ideal S1x1152x32 .f32) (k : Fin 1152) (o : Fin 32) :
    (truncf .bf16 (shapeCast S1152x32 v shapeCasts_S1x1152x32_S1152x32) bitsLt_bf16_f32 : FVec Ideal S1152x32 .bf16) (ix2 k o)
      = v (ix3 (0 : Fin 1) k o) :=
  shapeCast_1ab_ab_apply v shapeCasts_S1x1152x32_S1152x32 k o

/-- The bias added to every token's row, at a lane of the shared half: the padding. -/
theorem biasrow_j (z : Ideal .f32) (v : Vec Ideal S1x1x32 .f32) (t : Fin 256) (o : Fin 32) :
    broadcastTo S256x64 (concatenate S1x64 1 [⟨S1x32, (broadcast S1x32 z : FVec Ideal S1x32 .f32)⟩, ⟨S1x32, shapeCast S1x32 v shapeCasts_S1x1x32_S1x32⟩]
      concatenates_S1x32_S1x32_S1x64_d1) broadcasts_S1x64_S256x64 (ix2 t (laneL o)) = z :=
  (broadcastTo_1b_ab_apply _ broadcasts_S1x64_S256x64 t (laneL o)).trans (bias_left _ _ o)

/-- … and at a lane of the class half: the class's bias entry. -/
theorem biasrow_k (z : Ideal .f32) (v : Vec Ideal S1x1x32 .f32) (t : Fin 256) (o : Fin 32) :
    broadcastTo S256x64 (concatenate S1x64 1 [⟨S1x32, (broadcast S1x32 z : FVec Ideal S1x32 .f32)⟩, ⟨S1x32, shapeCast S1x32 v shapeCasts_S1x1x32_S1x32⟩]
      concatenates_S1x32_S1x32_S1x64_d1) broadcasts_S1x64_S256x64 (ix2 t (laneR o)) = v (ix3 (0 : Fin 1) (0 : Fin 1) o) :=
  ((broadcastTo_1b_ab_apply _ broadcasts_S1x64_S256x64 t (laneR o)).trans (bias_right _ _ o)).trans
    (shapeCast_1ab_ab_apply v shapeCasts_S1x1x32_S1x32 (0 : Fin 1) o)

/-- The product at a lane of the shared half. -/
theorem prod_j (X : FVec Ideal S256x1152 .bf16) (A B : FVec Ideal S1152x32 .bf16) (t : Fin 256) (o : Fin 32) :
    matmul dot_S256x1152_S1152x64_S256x64_1_0_0_1_n_n none X (concatenate S1152x64 1 [⟨S1152x32, A⟩, ⟨S1152x32, B⟩] concatenates_S1152x32_S1152x32_S1152x64_d1)
      (constant S256x64 .f32 0x00000000#32) (ix2 t (laneL o)) = ∑ k : Fin 1152, X (ix2 t k) * A (ix2 k o) :=
  (mm_apply X _ t (laneL o)).trans (Finset.sum_congr rfl fun k _ => congrArg (X (ix2 t k) * ·) (rhs_left A B k o))

/-- The product at a lane of the class half. -/
theorem prod_k (X : FVec Ideal S256x1152 .bf16) (A B : FVec Ideal S1152x32 .bf16) (t : Fin 256) (o : Fin 32) :
    matmul dot_S256x1152_S1152x64_S256x64_1_0_0_1_n_n none X (concatenate S1152x64 1 [⟨S1152x32, A⟩, ⟨S1152x32, B⟩] concatenates_S1152x32_S1152x32_S1152x64_d1)
      (constant S256x64 .f32 0x00000000#32) (ix2 t (laneR o)) = ∑ k : Fin 1152, X (ix2 t k) * B (ix2 k o) :=
  (mm_apply X _ t (laneR o)).trans (Finset.sum_congr rfl fun k _ => congrArg (X (ix2 t k) * ·) (rhs_right A B k o))

/-- A [256, 128] slab given a leading unit axis reads the slab. -/
theorem cast_back (w : FVec Ideal S256x128 .f32) (t : Fin 256) (l : Fin 128) :
    shapeCast S1x256x128 w shapeCasts_S256x128_S1x256x128 (ix3 (0 : Fin 1) t l) = w (ix2 t l) :=
  shapeCast_ab_1ab_apply w shapeCasts_S256x128_S1x256x128 (0 : Fin 1) t l

/-! ## The payloads of the two stores

The body stores one [1, 256, 128] slab per batch row of the block. At token t: lane o below 32 holds the shared projection of the
row plus the padding zero; lane 32 + o holds the class-conditional projection, the class's bias entry added. -/

/-- The zero the kernel pads its bias with is the number zero. -/
theorem pad_zero : (Scalar.ofBits (F := Ideal) .f32 0x00000000#32 : Ideal .f32) = 0 := by
  show Ideal.ofBits .f32 0x00000000#32 = 0
  exact Ideal.ofBits_zero_f32

/-- The first batch row's slab at a lane of the shared half. -/
theorem pay4_j (v0 : Vec Ideal S1152x32 .f32) (v4 : Vec Ideal S1x256x1152 .f32) (v7 : Vec Ideal S1x1152x32 .f32) (v12 : Vec Ideal S1x1x32 .f32)
    (t : Fin 256) (o : Fin 32) :
    k0_pay4 (F := Ideal) v0 v4 v7 v12 (ix3 (0 : Fin 1) t (lane128 (laneL o)))
      = (∑ k : Fin 1152, v4 (ix3 (0 : Fin 1) t k) * v0 (ix2 k o)) + 0 := by
  unfold k0_pay4
  refine (cast_back _ t _).trans ?_
  refine (out_left _ _ t (laneL o)).trans ?_
  refine (addf_apply _ _ _).trans ?_
  refine congrArg₂ (· + ·) ?_ ?_
  · refine (prod_j _ _ _ t o).trans (Finset.sum_congr rfl fun k _ => ?_)
    rw [act_apply, jw_apply]
  · exact (biasrow_j _ v12 t o).trans pad_zero

/-- The first batch row's slab at a lane of the class half. -/
theorem pay4_k (v0 : Vec Ideal S1152x32 .f32) (v4 : Vec Ideal S1x256x1152 .f32) (v7 : Vec Ideal S1x1152x32 .f32) (v12 : Vec Ideal S1x1x32 .f32)
    (t : Fin 256) (o : Fin 32) :
    k0_pay4 (F := Ideal) v0 v4 v7 v12 (ix3 (0 : Fin 1) t (lane128 (laneR o)))
      = (∑ k : Fin 1152, v4 (ix3 (0 : Fin 1) t k) * v7 (ix3 (0 : Fin 1) k o)) + v12 (ix3 (0 : Fin 1) (0 : Fin 1) o) := by
  unfold k0_pay4
  refine (cast_back _ t _).trans ?_
  refine (out_left _ _ t (laneR o)).trans ?_
  refine (addf_apply _ _ _).trans ?_
  refine congrArg₂ (· + ·) ?_ ?_
  · refine (prod_k _ _ _ t o).trans (Finset.sum_congr rfl fun k _ => ?_)
    rw [act_apply, kw_apply]
  · exact biasrow_k _ v12 t o

/-- The second batch row's product at a lane of the shared half … -/
theorem pay5_j (v0 : Vec Ideal S1152x32 .f32) (v22 : Vec Ideal S1x256x1152 .f32) (v25 : Vec Ideal S1x1152x32 .f32) (t : Fin 256) (o : Fin 32) :
    k0_pay5 (F := Ideal) v0 v22 v25 (ix2 t (laneL o)) = ∑ k : Fin 1152, v22 (ix3 (0 : Fin 1) t k) * v0 (ix2 k o) := by
  unfold k0_pay5
  refine (prod_j _ _ _ t o).trans (Finset.sum_congr rfl fun k _ => ?_)
  rw [act_apply, jw_apply]

/-- … and of the class half. -/
theorem pay5_k (v0 : Vec Ideal S1152x32 .f32) (v22 : Vec Ideal S1x256x1152 .f32) (v25 : Vec Ideal S1x1152x32 .f32) (t : Fin 256) (o : Fin 32) :
    k0_pay5 (F := Ideal) v0 v22 v25 (ix2 t (laneR o)) = ∑ k : Fin 1152, v22 (ix3 (0 : Fin 1) t k) * v25 (ix3 (0 : Fin 1) k o) := by
  unfold k0_pay5
  refine (prod_k _ _ _ t o).trans (Finset.sum_congr rfl fun k _ => ?_)
  rw [act_apply, kw_apply]

/-- The second batch row's slab, for any product handed to it, at a lane of the shared half … -/
theorem pay1_j (v3 v29 : FVec Ideal S256x64 .f32) (v30 : Vec Ideal S1x1x32 .f32) (t : Fin 256) (o : Fin 32) :
    k0_pay1 (F := Ideal) v3 v29 v30 (ix3 (0 : Fin 1) t (lane128 (laneL o))) = v29 (ix2 t (laneL o)) + 0 := by
  unfold k0_pay1
  refine (cast_back _ t _).trans ?_
  refine (out_left _ _ t (laneL o)).trans ?_
  refine (addf_apply _ _ _).trans ?_
  exact congrArg (v29 (ix2 t (laneL o)) + ·) ((biasrow_j _ v30 t o).trans pad_zero)

/-- … and of the class half. -/
theorem pay1_k (v3 v29 : FVec Ideal S256x64 .f32) (v30 : Vec Ideal S1x1x32 .f32) (t : Fin 256) (o : Fin 32) :
    k0_pay1 (F := Ideal) v3 v29 v30 (ix3 (0 : Fin 1) t (lane128 (laneR o))) = v29 (ix2 t (laneR o)) + v30 (ix3 (0 : Fin 1) (0 : Fin 1) o) := by
  unfold k0_pay1
  refine (cast_back _ t _).trans ?_
  refine (out_left _ _ t (laneR o)).trans ?_
  refine (addf_apply _ _ _).trans ?_
  exact congrArg (v29 (ix2 t (laneR o)) + ·) (biasrow_k _ v30 t o)

end Cert.KernelIdeal.Pay

end
-- ==== Proof.KiOut.lean ====
/-
  What the body leaves in the output block: row 0 the first store's slab, row 1 the second's, each a function of the buffers' contents.
-/
import proofs.«173310_j25847113187695_2_alg».proof.Proof.Gen.KernelIdeal.Launch
import proofs.«173310_j25847113187695_2_alg».proof.Proof.Gen.KernelIdeal.Skeleton
import Idealize.ShloMosaic.Lib.Pipeline.FrameSuffix
import Idealize.ShloMosaic.Lib.Pipeline.FrameBody
import Idealize.ShloMosaic.Lib.StableHlo.Run
import proofs.«173310_j25847113187695_2_alg».proof.Proof.KiDat
import proofs.«173310_j25847113187695_2_alg».proof.Proof.KiPay
import Idealize.ShloMosaic.Lib.ValueIdx
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The loads of the body, as functions of the buffers' contents -/

theorem hz2 : (![0, 0] : Fin 2 → Nat) = fun _ => 0 := funext fun a => by
  match a with
  | ⟨0, _⟩ => rfl
  | ⟨1, _⟩ => rfl
theorem hz3 : (![0, 0, 0] : Fin 3 → Nat) = fun _ => 0 := funext fun a => by
  match a with
  | ⟨0, _⟩ => rfl
  | ⟨1, _⟩ => rfl
  | ⟨2, _⟩ => rfl

/-- Batch row r of a two-row block of activations, as the [1, 256, 1152] slab the body loads. -/
def rowOf (r : Nat) (hr : r < 2) (x0 : Vec Ideal S2x256x1152 .f32) : Vec Ideal S1x256x1152 .f32 :=
  fun j => x0 (ix3 (⟨r, hr⟩ : Fin 2) (j 1) (j 2))

theorem rowOf_ix (r : Nat) (hr : r < 2) (x0 : Vec Ideal S2x256x1152 .f32) (t : Fin 256) (k : Fin 1152) :
    rowOf r hr x0 (ix3 (0 : Fin 1) t k) = x0 (ix3 (⟨r, hr⟩ : Fin 2) t k) := rfl

/-- A load of a whole staging buffer reads its contents. -/
theorem load_whole {S : Shape} {sp : Space} (arg : Memref sig .tc sp S .f32) (harg : arg.IsWhole) (x : Vec Ideal S .f32)
    {off : Fin S.rank → Nat} (hz : off = fun _ => 0) (inb : ∀ a, off a + S.size a ≤ S.size a) :
    View.readAt (Elt Ideal) arg.view (Rect.unit off S.size inb).toLoadRect (harg.unread x) = x := by
  simp only [View.readAt_eq_ld, harg.read_unread, View.ld_unit_zero (S := S) hz]

/-- A load of batch row r of the activations' staging buffer reads that row. -/
theorem load_row (r : Nat) (hr : r < 2) (arg2 : Memref sig .tc .vmem S2x256x1152 .f32) (harg2 : arg2.IsWhole) (x0 : Vec Ideal S2x256x1152 .f32)
    (inb : ∀ a, (![r, 0, 0] : Fin 3 → Nat) a + S1x256x1152.size a ≤ S2x256x1152.size a) :
    View.readAt (Elt Ideal) arg2.view (Rect.unit (s := S2x256x1152) ![r, 0, 0] S1x256x1152.size inb).toLoadRect (harg2.unread x0) = rowOf r hr x0 := by
  simp only [View.readAt_eq_ld, harg2.read_unread]
  funext j
  show x0 ((Rect.unit (s := S2x256x1152) ![r, 0, 0] S1x256x1152.size inb).emb j) = x0 (ix3 (⟨r, hr⟩ : Fin 2) (j 1) (j 2))
  refine congrArg x0 (funext fun a => Fin.ext ?_)
  rw [Rect.emb_apply]
  match a with
  | ⟨0, _⟩ =>
    have h0 : (j 0).val = 0 := Nat.lt_one_iff.mp (show (j 0).val < 1 from (j 0).isLt)
    show r + 1 * (j 0).val = r
    rw [h0]; omega
  | ⟨1, _⟩ => show 0 + 1 * (j 1).val = (j 1).val; omega
  | ⟨2, _⟩ => show 0 + 1 * (j 2).val = (j 2).val; omega

/-! ## The output block after the body -/

/-- Where the slab stored for batch row r lands in the two-row output block. -/
theorem emb_row (r : Nat) (hr : r < 2) (inb : ∀ a, (![r, 0, 0] : Fin 3 → Nat) a + S1x256x128.size a ≤ S2x256x128.size a) (t : Fin 256) (l : Fin 128) :
    (Rect.unit (s := S2x256x128) ![r, 0, 0] S1x256x128.size inb).emb (ix3 (0 : Fin 1) t l) = ix3 (⟨r, hr⟩ : Fin 2) t l :=
  funext fun a => Fin.ext (by
    rw [Rect.emb_apply]
    match a with
    | ⟨0, _⟩ => show r + 1 * 0 = r; omega
    | ⟨1, _⟩ => show 0 + 1 * t.val = t.val; omega
    | ⟨2, _⟩ => show 0 + 1 * l.val = l.val; omega)

/-- Row 1 of the block is the second store's payload. -/
theorem out_row1 (c : Dev nD) (i : grid0.Coords) (arg1 : Memref sig .tc .smem S64 .i32) (harg1 : arg1.IsWhole)
    (arg2 : Memref sig .tc .vmem S2x256x1152 .f32) (harg2 : arg2.IsWhole) (arg3 : Memref sig .tc .vmem S1152x32 .f32) (harg3 : arg3.IsWhole)
    (arg4 : Memref sig .tc .vmem S1x1152x32 .f32) (harg4 : arg4.IsWhole) (arg5 : Memref sig .tc .vmem S1x1152x32 .f32) (harg5 : arg5.IsWhole)
    (arg6 : Memref sig .tc .vmem S1x1x32 .f32) (harg6 : arg6.IsWhole) (arg7 : Memref sig .tc .vmem S1x1x32 .f32) (harg7 : arg7.IsWhole)
    (arg8 : Memref sig .tc .vmem S2x256x128 .f32) (harg8 : arg8.IsWhole)
    (x0 : Vec Ideal S2x256x1152 .f32) (x1 : Vec Ideal S1152x32 .f32) (x2 : Vec Ideal S1x1152x32 .f32) (x3 : Vec Ideal S1x1152x32 .f32)
    (x4 : Vec Ideal S1x1x32 .f32) (x5 : Vec Ideal S1x1x32 .f32) (t : Fin 256) (l : Fin 128) :
    outOf c i arg1 harg1 arg2 harg2 arg3 harg3 arg4 harg4 arg5 harg5 arg6 harg6 arg7 harg7 arg8 harg8 x0 x1 x2 x3 x4 x5 (ix3 (1 : Fin 2) t l)
      = k0_pay1 (F := Ideal) k0_pay3 (k0_pay5 x1 (rowOf 1 (by decide) x0) x3) x5 (ix3 (0 : Fin 1) t l) := by
  unfold outOf
  rw [View.read_writes_junk_eq_canon]
  unfold kernelRun
  rw [show ix3 (1 : Fin 2) t l = (Rect.unit (s := S2x256x128) ![1, 0, 0] S1x256x128.size inb_S2x256x128_S1x256x128_1_0_0).emb (ix3 (0 : Fin 1) t l)
    from (emb_row 1 (by decide) inb_S2x256x128_S1x256x128_1_0_0 t l).symm]
  refine (View.canon_cons_emb _ _ _ _).trans ?_
  unfold kernelRun.sl.r kernelRun.sl.r_1
  rw [load_whole arg3 harg3 x1 hz2, load_row 1 (by decide) arg2 harg2 x0, load_whole arg5 harg5 x3 hz3, load_whole arg7 harg7 x5 hz3]

/-- Row 0 of the block is the first store's payload: the second store, made later, does not reach row 0. -/
theorem out_row0 (c : Dev nD) (i : grid0.Coords) (arg1 : Memref sig .tc .smem S64 .i32) (harg1 : arg1.IsWhole)
    (arg2 : Memref sig .tc .vmem S2x256x1152 .f32) (harg2 : arg2.IsWhole) (arg3 : Memref sig .tc .vmem S1152x32 .f32) (harg3 : arg3.IsWhole)
    (arg4 : Memref sig .tc .vmem S1x1152x32 .f32) (harg4 : arg4.IsWhole) (arg5 : Memref sig .tc .vmem S1x1152x32 .f32) (harg5 : arg5.IsWhole)
    (arg6 : Memref sig .tc .vmem S1x1x32 .f32) (harg6 : arg6.IsWhole) (arg7 : Memref sig .tc .vmem S1x1x32 .f32) (harg7 : arg7.IsWhole)
    (arg8 : Memref sig .tc .vmem S2x256x128 .f32) (harg8 : arg8.IsWhole)
    (x0 : Vec Ideal S2x256x1152 .f32) (x1 : Vec Ideal S1152x32 .f32) (x2 : Vec Ideal S1x1152x32 .f32) (x3 : Vec Ideal S1x1152x32 .f32)
    (x4 : Vec Ideal S1x1x32 .f32) (x5 : Vec Ideal S1x1x32 .f32) (t : Fin 256) (l : Fin 128) :
    outOf c i arg1 harg1 arg2 harg2 arg3 harg3 arg4 harg4 arg5 harg5 arg6 harg6 arg7 harg7 arg8 harg8 x0 x1 x2 x3 x4 x5 (ix3 (0 : Fin 2) t l)
      = k0_pay4 (F := Ideal) x1 (rowOf 0 (by decide) x0) x2 x4 (ix3 (0 : Fin 1) t l) := by
  unfold outOf
  rw [View.read_writes_junk_eq_canon]
  unfold kernelRun
  refine (View.canon_cons_of_not_mem _ _ ?_).trans ?_
  · intro h
    have h' : ix3 (0 : Fin 2) t l ∈ (Rect.unit (s := S2x256x128) ![1, 0, 0] S1x256x128.size inb_S2x256x128_S1x256x128_1_0_0).set := h
    have h1 := (Rect.mem_set_unit.mp h') (0 : Fin 3)
    exact absurd h1.1 (show ¬ (1 ≤ 0) by decide)
  rw [show ix3 (0 : Fin 2) t l = (Rect.unit (s := S2x256x128) ![0, 0, 0] S1x256x128.size inb_S2x256x128_S1x256x128_0_0_0).emb (ix3 (0 : Fin 1) t l)
    from (emb_row 0 (by decide) inb_S2x256x128_S1x256x128_0_0_0 t l).symm]
  refine (View.canon_cons_emb _ _ _ _).trans ?_
  rw [load_whole arg3 harg3 x1 hz2, load_row 0 (by decide) arg2 harg2 x0, load_whole arg4 harg4 x2 hz3, load_whole arg6 harg6 x4 hz3]

end Cert.KernelIdeal.Hand

end
-- ==== Proof.KiArr.lean ====
/-
  From the points' blocks to the padded output: point t writes batch rows 2 t and 2 t + 1, and the 32 points tile the 64 rows.
-/
import proofs.«173310_j25847113187695_2_alg».proof.Proof.Gen.KernelIdeal.Launch
import proofs.«173310_j25847113187695_2_alg».proof.Proof.Gen.KernelIdeal.Skeleton
import Idealize.ShloMosaic.Lib.Pipeline.FrameSuffix
import Idealize.ShloMosaic.Lib.Pipeline.FrameBody
import Idealize.ShloMosaic.Lib.StableHlo.Run
import proofs.«173310_j25847113187695_2_alg».proof.Proof.KiLaunch
import proofs.«173310_j25847113187695_2_alg».proof.Proof.KiOut
import Idealize.ShloMosaic.Lib.ValueIdx
import Idealize.ShloMosaic.Lib.ValueLayout
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-! ## The output window's blocks -/

/-- The output window's block index at point t: block t on the batch axis. -/
theorem idx6 : ∀ t : Fin grid0.N, cc0_transform_6 (grid0.coords t) = ![t.val, 0, 0] := by decide +kernel

/-- The activations window moves with it. -/
theorem idx0 : ∀ t : Fin grid0.N, cc0_transform_0 (grid0.coords t) = ![t.val, 0, 0] := by decide +kernel

theorem lt32 (t : Fin grid0.N) : t.val < 32 := N_0 ▸ t.isLt

/-- Every point writes its output block back: the next point's block is another one. -/
theorem flush6 (t : Fin grid0.N) : ((cfgM m).win 6).flush t = true := by
  unfold Pipeline.Window.flush
  rw [Bool.and_eq_true]
  refine ⟨rfl, ?_⟩
  rw [Bool.or_eq_true]
  by_cases h : t.val + 1 = grid0.N
  · exact Or.inl (decide_eq_true h)
  · have hlt : t.val + 1 < grid0.N := by have := t.isLt; omega
    refine Or.inr (decide_eq_true ⟨hlt, fun e => ?_⟩)
    have e0 : cc0_transform_6 (grid0.coords ⟨t.val + 1, hlt⟩) (0 : Fin 3) = cc0_transform_6 (grid0.coords t) (0 : Fin 3) := congrFun e (0 : Fin 3)
    rw [idx6 ⟨t.val + 1, hlt⟩, idx6 t] at e0
    have e1 : t.val + 1 = t.val := e0
    omega

/-- An element (r, tt, l) of point t's output block sits in the array at batch row 2 t + r, the same token, the same lane. -/
theorem emb6 (t : Fin grid0.N) (r : Fin 2) (tt : Fin 256) (l : Fin 128) :
    (((cfgM m).win 6).blk t).view.emb (ix3 r tt l : S2x256x128.Idx)
      = (ix3 (⟨t.val * 2 + r.val, by have := lt32 t; have := r.isLt; omega⟩ : Fin 64) tt l : S64x256x128.Idx) := by
  funext a; refine Fin.ext ?_
  have hi := idx6 t
  match a with
  | ⟨0, _⟩ =>
    show cc0_transform_6 (grid0.coords t) (0 : Fin 3) * 2 + 1 * r.val = t.val * 2 + r.val
    rw [hi]; show t.val * 2 + 1 * r.val = _; omega
  | ⟨1, _⟩ =>
    show cc0_transform_6 (grid0.coords t) (1 : Fin 3) * 256 + 1 * tt.val = tt.val
    rw [hi]; show 0 * 256 + 1 * tt.val = _; omega
  | ⟨2, _⟩ =>
    show cc0_transform_6 (grid0.coords t) (2 : Fin 3) * 128 + 1 * l.val = l.val
    rw [hi]; show 0 * 128 + 1 * l.val = _; omega

/-! ## The padded output after the run -/

/-- A number below 32 is a point of the grid. -/
theorem lt_N {n : Nat} (h : n < 32) : n < grid0.N := N_0.symm ▸ h

/-- The padded output, described by the points' writes: batch row b belongs to point b / 2, as row b % 2 of its block. -/
def padAt (c : Dev nD) (b : Fin 64) (tt : Fin 256) (l : Fin 128) : EReal :=
  outsAt m c (⟨b.val / 2, lt_N (by have := b.isLt; omega)⟩ : Fin grid0.N)
    (ix3 (⟨b.val % 2, Nat.mod_lt _ (by decide)⟩ : Fin 2) tt l)

def Pad (c : Dev nD) : S64x256x128.Idx → EReal := fun y => padAt m c (y 0) (y 1) (y 2)

theorem Pad_ix (c : Dev nD) (b : Fin 64) (tt : Fin 256) (l : Fin 128) : Pad m c (ix3 b tt l) = padAt m c b tt l := rfl

/-- Row r of point t's block is batch row 2 t + r. -/
theorem padAt_block (c : Dev nD) (t : Fin grid0.N) (r : Fin 2) (tt : Fin 256) (l : Fin 128)
    (h : t.val * 2 + r.val < 64) :
    padAt m c (⟨t.val * 2 + r.val, h⟩ : Fin 64) tt l = outsAt m c t (ix3 r tt l) := by
  have hr2 : r.val < 2 := r.isLt
  have ht : (⟨(t.val * 2 + r.val) / 2, lt_N (by omega)⟩ : Fin grid0.N) = t :=
    Fin.ext (by show (t.val * 2 + r.val) / 2 = t.val; omega)
  have hr : (⟨(t.val * 2 + r.val) % 2, Nat.mod_lt _ (by decide)⟩ : Fin 2) = r :=
    Fin.ext (by show (t.val * 2 + r.val) % 2 = r.val; omega)
  exact congrArg₂ (fun (p : Fin grid0.N) (q : Fin 2) => outsAt m c p (ix3 q tt l)) ht hr

/-- What point t writes back is block t of the padded output. -/
theorem flushed6 (c : Dev nD) (t : Fin grid0.N) :
    (dats m 0 c).flushed 6 t = (((cfgM m).win 6).blk t).view.read (Elt Ideal) (Pad m c) := by
  show ((cfgM m).win 6).cut ((cfgM m).grid.coords t) ((dats m 0 c).after 6 t) = _
  rw [after6]
  refine funext fun (y : S2x256x128.Idx) => ?_
  obtain ⟨r, tt, l, rfl⟩ : ∃ (r : Fin 2) (tt : Fin 256) (l : Fin 128), y = ix3 r tt l := ⟨y 0, y 1, y 2, eq_ix3 y⟩
  show outsAt m c t (ix3 r tt l) = Pad m c ((((cfgM m).win 6).blk t).view.emb (ix3 r tt l : S2x256x128.Idx))
  rw [emb6, Pad_ix, padAt_block]

/-- The 32 blocks of two batch rows tile the 64 rows: batch row b is row b % 2 of block b / 2. -/
theorem cover6 (i : S64x256x128.Idx) : ∃ t : Fin (cfgM m).N, ((cfgM m).win 6).flush t = true ∧ i ∈ (((cfgM m).win 6).blk t).view.set := by
  obtain ⟨b, tt, l, rfl⟩ : ∃ (b : Fin 64) (tt : Fin 256) (l : Fin 128), i = ix3 b tt l := ⟨i 0, i 1, i 2, eq_ix3 i⟩
  have hb : b.val < 64 := b.isLt
  refine ⟨(⟨b.val / 2, lt_N (by omega)⟩ : Fin grid0.N), flush6 m _, ?_⟩
  have key := (emb6 m (⟨b.val / 2, lt_N (by omega)⟩ : Fin grid0.N) (⟨b.val % 2, Nat.mod_lt _ (by decide)⟩ : Fin 2) tt l).trans
    (congrArg (fun q : Fin 64 => (ix3 q tt l : S64x256x128.Idx))
      (Fin.ext (by show b.val / 2 * 2 + b.val % 2 = b.val; omega) : (⟨_, _⟩ : Fin 64) = b))
  rw [← key]
  exact View.emb_mem_set _ _

/-- The padded output after the run. -/
theorem final6 (c : Dev nD) : (dats m 0 c).arrAt 6 (cfgM m).N = Pad m c :=
  (dats m 0 c).arrAt_eq_of_cover 6 (Pad m c) (fun t _ => flushed6 m c t) (cover6 m)

end Cert.KernelIdeal.Hand

end
-- ==== Proof.Spec.lean ====
/-
  What the two results are, index by index, over the extended reals.

  Batch row b, token t, output channel o.  The SHARED projection is the activations' row (b, t) against row o of the shared
  weight, summed over the 1152 hidden channels.  The CLASS-CONDITIONAL projection uses, for batch row b, the weight slab and
  the bias row of that row's class: the same sum against column o of the slab, plus entry o of the bias row.
  Both programs compute exactly these two functions; the kernel adds a zero to the shared half (its bias is padded with
  zeros there), which changes nothing, and no other law is needed to join the two sides: in particular nothing here asks
  the inputs to be finite.
-/
import Idealize.ShloMosaic.PureOps.Ideal
import Idealize.ShloMosaic.Lib.ValueIdx

noncomputable section

namespace Cert.Spec

open Idealize.ShloMosaic Idealize.ShloMosaic.ValueIdx

/-- Activations [batch, token, hidden]. -/
abbrev SF : Shape := ⟨3, ![64, 256, 1152]⟩
/-- Shared weight [out, hidden]. -/
abbrev SJ : Shape := ⟨2, ![32, 1152]⟩
/-- Class weights [class, hidden, out]. -/
abbrev SKw : Shape := ⟨3, ![1000, 1152, 32]⟩
/-- Class biases [class, out]. -/
abbrev SKb : Shape := ⟨2, ![1000, 32]⟩
/-- A result [batch, token, out]. -/
abbrev SO : Shape := ⟨3, ![64, 256, 32]⟩

/-- The shared projection at (b, t, o). -/
def gj (f : SF.Idx → EReal) (J : SJ.Idx → EReal) (b : Fin 64) (t : Fin 256) (o : Fin 32) : EReal :=
  ∑ h : Fin 1152, f (ix3 b t h) * J (ix2 o h)

/-- The class-conditional projection at (b, t, o), batch row b being of class `cls b`. -/
def gk (cls : Fin 64 → Fin 1000) (f : SF.Idx → EReal) (Kw : SKw.Idx → EReal) (Kb : SKb.Idx → EReal)
    (b : Fin 64) (t : Fin 256) (o : Fin 32) : EReal :=
  (∑ h : Fin 1152, f (ix3 b t h) * Kw (ix3 (cls b) h o)) + Kb (ix2 (cls b) o)

/-- The shared projection as a whole array. -/
def Gj (f : SF.Idx → EReal) (J : SJ.Idx → EReal) : SO.Idx → EReal := fun i => gj f J (i 0) (i 1) (i 2)

/-- The class-conditional projection as a whole array. -/
def Gk (cls : Fin 64 → Fin 1000) (f : SF.Idx → EReal) (Kw : SKw.Idx → EReal) (Kb : SKb.Idx → EReal) : SO.Idx → EReal :=
  fun i => gk cls f Kw Kb (i 0) (i 1) (i 2)

theorem Gj_ix (f : SF.Idx → EReal) (J : SJ.Idx → EReal) (b : Fin 64) (t : Fin 256) (o : Fin 32) :
    Gj f J (ix3 b t o) = gj f J b t o := rfl

theorem Gk_ix (cls : Fin 64 → Fin 1000) (f : SF.Idx → EReal) (Kw : SKw.Idx → EReal) (Kb : SKb.Idx → EReal)
    (b : Fin 64) (t : Fin 256) (o : Fin 32) : Gk cls f Kw Kb (ix3 b t o) = gk cls f Kw Kb b t o := rfl

/-- Two arrays of a result's shape agree once they agree at every (b, t, o). -/
theorem ext_ix {α : Type} (X Y : SO.Idx → α) (h : ∀ (b : Fin 64) (t : Fin 256) (o : Fin 32), X (ix3 b t o) = Y (ix3 b t o)) : X = Y := by
  funext i
  rw [eq_ix3 i]
  exact h _ _ _

end Cert.Spec

end
-- ==== Proof.KiVal.lean ====
/-
  The kernel's two results as functions of the arguments: each input block read off its array, the padded output lane by lane, the two slices.
-/
import proofs.«173310_j25847113187695_2_alg».proof.Proof.Gen.KernelIdeal.Launch
import proofs.«173310_j25847113187695_2_alg».proof.Proof.Gen.KernelIdeal.Skeleton
import Idealize.ShloMosaic.Lib.Pipeline.FrameSuffix
import Idealize.ShloMosaic.Lib.Pipeline.FrameBody
import Idealize.ShloMosaic.Lib.StableHlo.Run
import proofs.«173310_j25847113187695_2_alg».proof.Proof.KiArr
import proofs.«173310_j25847113187695_2_alg».proof.Proof.KiPay
import proofs.«173310_j25847113187695_2_alg».proof.Proof.Spec
import Idealize.ShloMosaic.Lib.ValueIdx
import Idealize.ShloMosaic.Lib.ValueLayout
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-! ## The classes the region reads -/

/-- The two table offsets a point's index maps compute: 2 t and 2 t + 1 (no 32-bit wrap below 64). -/
theorem off1 : ∀ t : Fin grid0.N, k0_off1 (grid0.coords t) = ![2 * t.val] := by decide +kernel
theorem off2 : ∀ t : Fin grid0.N, k0_off2 (grid0.coords t) = ![2 * t.val + 1] := by decide +kernel

/-- A table entry read through the one-element rectangle at offset n is entry n. -/
theorem at_eq (pf : pre0.Contents (Elt Ideal)) (off : Fin 1 → Nat) (inb : ∀ a, off a + S1.size a ≤ S64.size a)
    (n : Nat) (hn : n < 64) (hoff : off 0 = n) :
    pf.at 0 (Rect.unit (s := S64) off S1.size inb) numel1_S1 = (pf 0 : S64.Idx → BitVec 32) (ix1 (⟨n, hn⟩ : Fin 64)) :=
  congrArg (pf 0 : S64.Idx → BitVec 32) (funext fun a => Fin.ext (by
    match a with
    | ⟨0, _⟩ => show off 0 + 1 * 0 = n; omega))

/-- Index map 2 at any table contents: the table's entry at the offset, then zeros. -/
theorem tr2_eq (pf : pre0.Contents (Elt Ideal)) (i : grid0.Coords) (n : Nat) (hn : n < 64) (ho : k0_off1 i (0 : Fin 1) = n) :
    cc0_transform_2 k0_off1_inb numel1_S1 pf i = ![((pf 0 : S64.Idx → BitVec 32) (ix1 (⟨n, hn⟩ : Fin 64))).toNat, 0, 0] := by
  funext a
  match a with
  | ⟨0, _⟩ => exact congrArg BitVec.toNat (at_eq pf _ _ n hn ho)
  | ⟨1, _⟩ => rfl
  | ⟨2, _⟩ => rfl

/-- Index map 3 at any table contents: the table's entry at the offset, then zeros. -/
theorem tr3_eq (pf : pre0.Contents (Elt Ideal)) (i : grid0.Coords) (n : Nat) (hn : n < 64) (ho : k0_off2 i (0 : Fin 1) = n) :
    cc0_transform_3 k0_off2_inb numel1_S1 pf i = ![((pf 0 : S64.Idx → BitVec 32) (ix1 (⟨n, hn⟩ : Fin 64))).toNat, 0, 0] := by
  funext a
  match a with
  | ⟨0, _⟩ => exact congrArg BitVec.toNat (at_eq pf _ _ n hn ho)
  | ⟨1, _⟩ => rfl
  | ⟨2, _⟩ => rfl

/-- Index map 4 at any table contents: the table's entry at the offset, then zeros. -/
theorem tr4_eq (pf : pre0.Contents (Elt Ideal)) (i : grid0.Coords) (n : Nat) (hn : n < 64) (ho : k0_off1 i (0 : Fin 1) = n) :
    cc0_transform_4 k0_off1_inb numel1_S1 pf i = ![((pf 0 : S64.Idx → BitVec 32) (ix1 (⟨n, hn⟩ : Fin 64))).toNat, 0, 0] := by
  funext a
  match a with
  | ⟨0, _⟩ => exact congrArg BitVec.toNat (at_eq pf _ _ n hn ho)
  | ⟨1, _⟩ => rfl
  | ⟨2, _⟩ => rfl

/-- Index map 5 at any table contents: the table's entry at the offset, then zeros. -/
theorem tr5_eq (pf : pre0.Contents (Elt Ideal)) (i : grid0.Coords) (n : Nat) (hn : n < 64) (ho : k0_off2 i (0 : Fin 1) = n) :
    cc0_transform_5 k0_off2_inb numel1_S1 pf i = ![((pf 0 : S64.Idx → BitVec 32) (ix1 (⟨n, hn⟩ : Fin 64))).toNat, 0, 0] := by
  funext a
  match a with
  | ⟨0, _⟩ => exact congrArg BitVec.toNat (at_eq pf _ _ n hn ho)
  | ⟨1, _⟩ => rfl
  | ⟨2, _⟩ => rfl

/-- The class the region reads for batch row b: the table's entry b, which is the label clamped into [0, 999]. -/
def kerCls (b : Fin 64) : Fin 1000 := ⟨((tbl m 0 : S64.Idx → BitVec 32) (ix1 b)).toNat, Nat.lt_succ_of_le (tbl_le m _)⟩

theorem kerCls_val (b : Fin 64) : (kerCls m b).val = ((tbl m 0 : S64.Idx → BitVec 32) (ix1 b)).toNat := rfl

/-- Batch rows 2 t and 2 t + 1 of point t. -/
abbrev row0 (t : Fin grid0.N) : Fin 64 := ⟨2 * t.val, by have := lt32 t; omega⟩
abbrev row1 (t : Fin grid0.N) : Fin 64 := ⟨2 * t.val + 1, by have := lt32 t; omega⟩

/-- At point t the class weight and bias windows of the first batch row sit at row 2 t's class, those of the second at row 2 t + 1's. -/
theorem tidx2 (t : Fin grid0.N) : cc0_transform_2 k0_off1_inb numel1_S1 (tbl m) (grid0.coords t) = ![(kerCls m (row0 t)).val, 0, 0] :=
  tr2_eq (tbl m) (grid0.coords t) (2 * t.val) _ (congrFun (off1 t) (0 : Fin 1))
theorem tidx3 (t : Fin grid0.N) : cc0_transform_3 k0_off2_inb numel1_S1 (tbl m) (grid0.coords t) = ![(kerCls m (row1 t)).val, 0, 0] :=
  tr3_eq (tbl m) (grid0.coords t) (2 * t.val + 1) _ (congrFun (off2 t) (0 : Fin 1))
theorem tidx4 (t : Fin grid0.N) : cc0_transform_4 k0_off1_inb numel1_S1 (tbl m) (grid0.coords t) = ![(kerCls m (row0 t)).val, 0, 0] :=
  tr4_eq (tbl m) (grid0.coords t) (2 * t.val) _ (congrFun (off1 t) (0 : Fin 1))
theorem tidx5 (t : Fin grid0.N) : cc0_transform_5 k0_off2_inb numel1_S1 (tbl m) (grid0.coords t) = ![(kerCls m (row1 t)).val, 0, 0] :=
  tr5_eq (tbl m) (grid0.coords t) (2 * t.val + 1) _ (congrFun (off2 t) (0 : Fin 1))

/-! ## The input blocks read off their arrays

Each statement is for an arbitrary array of the window's shape: element y of point t's block is the array at the block's position
plus y. -/

theorem blk0_read (A : S64x256x1152.Idx → EReal) (t : Fin grid0.N) (r : Fin 2) (tt : Fin 256) (k : Fin 1152) :
    (((cfgM m).win 0).blk t).view.read (Elt Ideal) A (ix3 r tt k : S2x256x1152.Idx) = A (ix3 (⟨t.val * 2 + r.val, by have := lt32 t; have := r.isLt; omega⟩ : Fin 64) tt k) := by
  show A ((((cfgM m).win 0).blk t).view.emb (ix3 r tt k : S2x256x1152.Idx)) = _
  refine congrArg A (funext fun a => Fin.ext ?_)
  match a with
    | ⟨0, _⟩ =>
      show cc0_transform_0 (grid0.coords t) (0 : Fin 3) * 2 + 1 * r.val = t.val * 2 + r.val
      rw [idx0 t]; show t.val * 2 + 1 * r.val = t.val * 2 + r.val; omega
    | ⟨1, _⟩ =>
      show cc0_transform_0 (grid0.coords t) (1 : Fin 3) * 256 + 1 * tt.val = tt.val
      rw [idx0 t]; show 0 * 256 + 1 * tt.val = tt.val; omega
    | ⟨2, _⟩ =>
      show cc0_transform_0 (grid0.coords t) (2 : Fin 3) * 1152 + 1 * k.val = k.val
      rw [idx0 t]; show 0 * 1152 + 1 * k.val = k.val; omega

theorem blk1_read (A : S1152x32.Idx → EReal) (t : Fin grid0.N) (k : Fin 1152) (o : Fin 32) :
    (((cfgM m).win 1).blk t).view.read (Elt Ideal) A (ix2 k o : S1152x32.Idx) = A (ix2 k o) := by
  show A ((((cfgM m).win 1).blk t).view.emb (ix2 k o : S1152x32.Idx)) = _
  refine congrArg A (funext fun a => Fin.ext ?_)
  match a with
    | ⟨0, _⟩ =>
      show cc0_transform_1 (grid0.coords t) (0 : Fin 2) * 1152 + 1 * k.val = k.val
      show 0 * 1152 + 1 * k.val = k.val; omega
    | ⟨1, _⟩ =>
      show cc0_transform_1 (grid0.coords t) (1 : Fin 2) * 32 + 1 * o.val = o.val
      show 0 * 32 + 1 * o.val = o.val; omega

theorem blk2_read (A : S1000x1152x32.Idx → EReal) (t : Fin grid0.N) (k : Fin 1152) (o : Fin 32) :
    (((cfgM m).win 2).blk t).view.read (Elt Ideal) A (ix3 (0 : Fin 1) k o : S1x1152x32.Idx) = A (ix3 (kerCls m (row0 t)) k o) := by
  show A ((((cfgM m).win 2).blk t).view.emb (ix3 (0 : Fin 1) k o : S1x1152x32.Idx)) = _
  refine congrArg A (funext fun a => Fin.ext ?_)
  match a with
    | ⟨0, _⟩ =>
      show cc0_transform_2 k0_off1_inb numel1_S1 (tbl m) (grid0.coords t) (0 : Fin 3) * 1 + 1 * 0 = (kerCls m (row0 t)).val
      rw [tidx2 m t]; show (kerCls m (row0 t)).val * 1 + 1 * 0 = (kerCls m (row0 t)).val; omega
    | ⟨1, _⟩ =>
      show cc0_transform_2 k0_off1_inb numel1_S1 (tbl m) (grid0.coords t) (1 : Fin 3) * 1152 + 1 * k.val = k.val
      rw [tidx2 m t]; show 0 * 1152 + 1 * k.val = k.val; omega
    | ⟨2, _⟩ =>
      show cc0_transform_2 k0_off1_inb numel1_S1 (tbl m) (grid0.coords t) (2 : Fin 3) * 32 + 1 * o.val = o.val
      rw [tidx2 m t]; show 0 * 32 + 1 * o.val = o.val; omega

theorem blk3_read (A : S1000x1152x32.Idx → EReal) (t : Fin grid0.N) (k : Fin 1152) (o : Fin 32) :
    (((cfgM m).win 3).blk t).view.read (Elt Ideal) A (ix3 (0 : Fin 1) k o : S1x1152x32.Idx) = A (ix3 (kerCls m (row1 t)) k o) := by
  show A ((((cfgM m).win 3).blk t).view.emb (ix3 (0 : Fin 1) k o : S1x1152x32.Idx)) = _
  refine congrArg A (funext fun a => Fin.ext ?_)
  match a with
    | ⟨0, _⟩ =>
      show cc0_transform_3 k0_off2_inb numel1_S1 (tbl m) (grid0.coords t) (0 : Fin 3) * 1 + 1 * 0 = (kerCls m (row1 t)).val
      rw [tidx3 m t]; show (kerCls m (row1 t)).val * 1 + 1 * 0 = (kerCls m (row1 t)).val; omega
    | ⟨1, _⟩ =>
      show cc0_transform_3 k0_off2_inb numel1_S1 (tbl m) (grid0.coords t) (1 : Fin 3) * 1152 + 1 * k.val = k.val
      rw [tidx3 m t]; show 0 * 1152 + 1 * k.val = k.val; omega
    | ⟨2, _⟩ =>
      show cc0_transform_3 k0_off2_inb numel1_S1 (tbl m) (grid0.coords t) (2 : Fin 3) * 32 + 1 * o.val = o.val
      rw [tidx3 m t]; show 0 * 32 + 1 * o.val = o.val; omega

theorem blk4_read (A : S1000x1x32.Idx → EReal) (t : Fin grid0.N) (o : Fin 32) :
    (((cfgM m).win 4).blk t).view.read (Elt Ideal) A (ix3 (0 : Fin 1) (0 : Fin 1) o : S1x1x32.Idx) = A (ix3 (kerCls m (row0 t)) (0 : Fin 1) o) := by
  show A ((((cfgM m).win 4).blk t).view.emb (ix3 (0 : Fin 1) (0 : Fin 1) o : S1x1x32.Idx)) = _
  refine congrArg A (funext fun a => Fin.ext ?_)
  match a with
    | ⟨0, _⟩ =>
      show cc0_transform_4 k0_off1_inb numel1_S1 (tbl m) (grid0.coords t) (0 : Fin 3) * 1 + 1 * 0 = (kerCls m (row0 t)).val
      rw [tidx4 m t]; show (kerCls m (row0 t)).val * 1 + 1 * 0 = (kerCls m (row0 t)).val; omega
    | ⟨1, _⟩ =>
      show cc0_transform_4 k0_off1_inb numel1_S1 (tbl m) (grid0.coords t) (1 : Fin 3) * 1 + 1 * 0 = 0
      rw [tidx4 m t]; show 0 * 1 + 1 * 0 = 0; omega
    | ⟨2, _⟩ =>
      show cc0_transform_4 k0_off1_inb numel1_S1 (tbl m) (grid0.coords t) (2 : Fin 3) * 32 + 1 * o.val = o.val
      rw [tidx4 m t]; show 0 * 32 + 1 * o.val = o.val; omega

theorem blk5_read (A : S1000x1x32.Idx → EReal) (t : Fin grid0.N) (o : Fin 32) :
    (((cfgM m).win 5).blk t).view.read (Elt Ideal) A (ix3 (0 : Fin 1) (0 : Fin 1) o : S1x1x32.Idx) = A (ix3 (kerCls m (row1 t)) (0 : Fin 1) o) := by
  show A ((((cfgM m).win 5).blk t).view.emb (ix3 (0 : Fin 1) (0 : Fin 1) o : S1x1x32.Idx)) = _
  refine congrArg A (funext fun a => Fin.ext ?_)
  match a with
    | ⟨0, _⟩ =>
      show cc0_transform_5 k0_off2_inb numel1_S1 (tbl m) (grid0.coords t) (0 : Fin 3) * 1 + 1 * 0 = (kerCls m (row1 t)).val
      rw [tidx5 m t]; show (kerCls m (row1 t)).val * 1 + 1 * 0 = (kerCls m (row1 t)).val; omega
    | ⟨1, _⟩ =>
      show cc0_transform_5 k0_off2_inb numel1_S1 (tbl m) (grid0.coords t) (1 : Fin 3) * 1 + 1 * 0 = 0
      rw [tidx5 m t]; show 0 * 1 + 1 * 0 = 0; omega
    | ⟨2, _⟩ =>
      show cc0_transform_5 k0_off2_inb numel1_S1 (tbl m) (grid0.coords t) (2 : Fin 3) * 32 + 1 * o.val = o.val
      rw [tidx5 m t]; show 0 * 32 + 1 * o.val = o.val; omega

/-! ## The arrays the host lines write before the region, and the slices after it -/

/-- The shared weight as the region finds it: transposed, so its entry (k, o) is the argument's (o, k). -/
theorem V_v1_apply (c : Dev nD) (k : Fin 1152) (o : Fin 32) :
    (V m c main_v1 : S1152x32.Idx → EReal) (ix2 k o) = m ((c.tc : Thread nD τ).loc main_arg2) (ix2 o k) := by
  have e : (V m c main_v1 : S1152x32.Idx → EReal)
      = transpose S1152x32 [1, 0] (m ((c.tc : Thread nD τ).loc main_arg2)) transposes_S32x1152_S1152x32_1_0 := by
    dsimp only [V]
    simp only [hostOps0, hostOps0_1, hostOps0_2, List.flatten_cons, List.flatten_nil, List.append_nil, List.cons_append, List.nil_append]
    after_results <;> rfl
  rw [e]
  exact transpose_ix2_apply _ _ k o

/-- The bias table as the region finds it: given a middle unit axis, so its entry (cls, 0, o) is the argument's (cls, o). -/
theorem V_v2_apply (c : Dev nD) (cls : Fin 1000) (o : Fin 32) :
    (V m c main_v2 : S1000x1x32.Idx → EReal) (ix3 cls (0 : Fin 1) o) = m ((c.tc : Thread nD τ).loc main_arg4) (ix2 cls o) := by
  dsimp only [V]
  simp only [hostOps0, hostOps0_1, hostOps0_2, List.flatten_cons, List.flatten_nil, List.append_nil, List.cons_append, List.nil_append]
  after_results
  show shapeCast S1000x1x32 (m ((c.tc : Thread nD τ).loc main_arg4)) shapeCasts_S1000x32_S1000x1x32 (ix3 cls (0 : Fin 1) o) = _
  exact shapeCast_apply _ _ _ _ (by
    show ((⟨2, ![1000, 32]⟩ : Shape).rowMajor (ix2 cls o)).val = ((⟨3, ![1000, 1, 32]⟩ : Shape).rowMajor (ix3 cls (0 : Fin 1) o)).val
    rw [Shape.rowMajor_val_two, Shape.rowMajor_val_three]
    show cls.val * 32 + o.val = (cls.val * 1 + 0) * 32 + o.val
    omega)

open Cert.KernelIdeal.Pay in
/-- The first result is the padded output's lanes 0 to 31 … -/
theorem Vf_v4_apply (c : Dev nD) (b : Fin 64) (tt : Fin 256) (o : Fin 32) :
    (Vf m c main_v4 : S64x256x32.Idx → EReal) (ix3 b tt o) = Pad m c (ix3 b tt (lane128 (laneL o))) := by
  unfold Vf
  simp only [hostOps1]
  after_results
  rw [Wx_v3, final6]
  exact extractStridedSlice_apply _ _ _ _ _ (fun a => by
    match a with
    | ⟨0, _⟩ => show b.val = 0 + b.val; omega
    | ⟨1, _⟩ => show tt.val = 0 + tt.val; omega
    | ⟨2, _⟩ => show o.val = 0 + o.val; omega)

open Cert.KernelIdeal.Pay in
/-- … and the second its lanes 32 to 63. -/
theorem Vf_v5_apply (c : Dev nD) (b : Fin 64) (tt : Fin 256) (o : Fin 32) :
    (Vf m c main_v5 : S64x256x32.Idx → EReal) (ix3 b tt o) = Pad m c (ix3 b tt (lane128 (laneR o))) := by
  unfold Vf
  simp only [hostOps1]
  after_results
  rw [Wx_v3, final6]
  exact extractStridedSlice_apply _ _ _ _ _ (fun a => by
    match a with
    | ⟨0, _⟩ => show b.val = 0 + b.val; omega
    | ⟨1, _⟩ => show tt.val = 0 + tt.val; omega
    | ⟨2, _⟩ => show 32 + o.val = 32 + o.val; rfl)

/-! ## The padded output, lane by lane, as functions of the arguments -/

open Cert.KernelIdeal.Pay in
/-- Lane o of batch row b: the shared projection, the padding zero added. -/
theorem pad_j (c : Dev nD) (b : Fin 64) (tt : Fin 256) (o : Fin 32) :
    Pad m c (ix3 b tt (lane128 (laneL o))) = Cert.Spec.gj (m ((c.tc : Thread nD τ).loc main_arg0)) (m ((c.tc : Thread nD τ).loc main_arg2)) b tt o + 0 := by
  have hb : b.val < 64 := b.isLt
  rw [Pad_ix]
  unfold padAt
  generalize ht0 : (⟨b.val / 2, lt_N (by omega)⟩ : Fin grid0.N) = t0
  have ht0v : t0.val = b.val / 2 := by rw [← ht0]
  rcases Nat.mod_two_eq_zero_or_one b.val with h | h
  ·
      have hr : (⟨b.val % 2, Nat.mod_lt _ (by decide)⟩ : Fin 2) = (0 : Fin 2) := Fin.ext h
      have hcls : row0 t0 = b := Fin.ext (by show 2 * (t0.val) = b.val; omega)
      rw [hr]
      unfold outsAt
      refine (out_row0 c _ _ _ _ _ _ _ _ _ _ _ _ _ _ _ _ _ _ _ _ _ _ _ tt _).trans ?_
      refine (pay4_j _ _ _ _ tt o).trans ?_
      unfold Cert.Spec.gj
      refine congrArg₂ (· + ·) ?_ ?_
      · refine Finset.sum_congr rfl fun k _ => ?_
        refine congrArg₂ (· * ·) ?_ ?_
        · refine (blk0_read m (V m c main_arg0) t0 (0 : Fin 2) tt k).trans ?_
          rw [V_arg0]
          exact congrArg (fun q : Fin 64 => m ((c.tc : Thread nD τ).loc main_arg0) (ix3 q tt k)) (Fin.ext (by show t0.val * 2 + (0 : Fin 2).val = b.val; show t0.val * 2 + 0 = b.val; omega))
        · exact (blk1_read m (V m c main_v1) t0 k o).trans (V_v1_apply m c k o)
      · rfl
  ·
      have hr : (⟨b.val % 2, Nat.mod_lt _ (by decide)⟩ : Fin 2) = (1 : Fin 2) := Fin.ext h
      have hcls : row1 t0 = b := Fin.ext (by show 2 * (t0.val) + 1 = b.val; omega)
      rw [hr]
      unfold outsAt
      refine (out_row1 c _ _ _ _ _ _ _ _ _ _ _ _ _ _ _ _ _ _ _ _ _ _ _ tt _).trans ?_
      refine (pay1_j _ _ _ tt o).trans ?_
      refine (congrArg (· + (0 : EReal)) (pay5_j _ _ _ tt o)).trans ?_
      unfold Cert.Spec.gj
      refine congrArg₂ (· + ·) ?_ ?_
      · refine Finset.sum_congr rfl fun k _ => ?_
        refine congrArg₂ (· * ·) ?_ ?_
        · refine (blk0_read m (V m c main_arg0) t0 (1 : Fin 2) tt k).trans ?_
          rw [V_arg0]
          exact congrArg (fun q : Fin 64 => m ((c.tc : Thread nD τ).loc main_arg0) (ix3 q tt k)) (Fin.ext (by show t0.val * 2 + (1 : Fin 2).val = b.val; show t0.val * 2 + 1 = b.val; omega))
        · exact (blk1_read m (V m c main_v1) t0 k o).trans (V_v1_apply m c k o)
      · rfl

open Cert.KernelIdeal.Pay in
/-- Lane 32 + o of batch row b: the class-conditional projection at the class the table names for b. -/
theorem pad_k (c : Dev nD) (b : Fin 64) (tt : Fin 256) (o : Fin 32) :
    Pad m c (ix3 b tt (lane128 (laneR o))) = Cert.Spec.gk (kerCls m) (m ((c.tc : Thread nD τ).loc main_arg0)) (m ((c.tc : Thread nD τ).loc main_arg3)) (m ((c.tc : Thread nD τ).loc main_arg4)) b tt o := by
  have hb : b.val < 64 := b.isLt
  rw [Pad_ix]
  unfold padAt
  generalize ht0 : (⟨b.val / 2, lt_N (by omega)⟩ : Fin grid0.N) = t0
  have ht0v : t0.val = b.val / 2 := by rw [← ht0]
  rcases Nat.mod_two_eq_zero_or_one b.val with h | h
  ·
      have hr : (⟨b.val % 2, Nat.mod_lt _ (by decide)⟩ : Fin 2) = (0 : Fin 2) := Fin.ext h
      have hcls : row0 t0 = b := Fin.ext (by show 2 * (t0.val) = b.val; omega)
      rw [hr]
      unfold outsAt
      refine (out_row0 c _ _ _ _ _ _ _ _ _ _ _ _ _ _ _ _ _ _ _ _ _ _ _ tt _).trans ?_
      refine (pay4_k _ _ _ _ tt o).trans ?_
      unfold Cert.Spec.gk
      refine congrArg₂ (· + ·) ?_ ?_
      · refine Finset.sum_congr rfl fun k _ => ?_
        refine congrArg₂ (· * ·) ?_ ?_
        · refine (blk0_read m (V m c main_arg0) t0 (0 : Fin 2) tt k).trans ?_
          rw [V_arg0]
          exact congrArg (fun q : Fin 64 => m ((c.tc : Thread nD τ).loc main_arg0) (ix3 q tt k)) (Fin.ext (by show t0.val * 2 + (0 : Fin 2).val = b.val; show t0.val * 2 + 0 = b.val; omega))
        · refine (blk2_read m (V m c main_arg3) t0 k o).trans ?_
          rw [V_arg3, hcls]
      · refine (blk4_read m (V m c main_v2) t0 o).trans ?_
        rw [hcls]
        exact V_v2_apply m c _ o
  ·
      have hr : (⟨b.val % 2, Nat.mod_lt _ (by decide)⟩ : Fin 2) = (1 : Fin 2) := Fin.ext h
      have hcls : row1 t0 = b := Fin.ext (by show 2 * (t0.val) + 1 = b.val; omega)
      rw [hr]
      unfold outsAt
      refine (out_row1 c _ _ _ _ _ _ _ _ _ _ _ _ _ _ _ _ _ _ _ _ _ _ _ tt _).trans ?_
      refine (pay1_k _ _ _ tt o).trans ?_
      refine (congrArg₂ (fun x y : EReal => x + y) (pay5_k _ _ _ tt o) rfl).trans ?_
      unfold Cert.Spec.gk
      refine congrArg₂ (· + ·) ?_ ?_
      · refine Finset.sum_congr rfl fun k _ => ?_
        refine congrArg₂ (· * ·) ?_ ?_
        · refine (blk0_read m (V m c main_arg0) t0 (1 : Fin 2) tt k).trans ?_
          rw [V_arg0]
          exact congrArg (fun q : Fin 64 => m ((c.tc : Thread nD τ).loc main_arg0) (ix3 q tt k)) (Fin.ext (by show t0.val * 2 + (1 : Fin 2).val = b.val; show t0.val * 2 + 1 = b.val; omega))
        · refine (blk3_read m (V m c main_arg3) t0 k o).trans ?_
          rw [V_arg3, hcls]
      · refine (blk5_read m (V m c main_v2) t0 o).trans ?_
        rw [hcls]
        exact V_v2_apply m c _ o

/-! ## The two results -/

/-- The first result is the shared projection: the padding zero the kernel adds changes nothing. -/
theorem Vf_v4_eq (c : Dev nD) : (Vf m c main_v4 : S64x256x32.Idx → EReal) = Cert.Spec.Gj (m ((c.tc : Thread nD τ).loc main_arg0)) (m ((c.tc : Thread nD τ).loc main_arg2)) := by
  refine Cert.Spec.ext_ix _ _ fun b tt o => ?_
  rw [Vf_v4_apply, pad_j, Cert.Spec.Gj_ix, add_zero]

/-- The second result is the class-conditional projection at the classes the table names. -/
theorem Vf_v5_eq (c : Dev nD) : (Vf m c main_v5 : S64x256x32.Idx → EReal) = Cert.Spec.Gk (kerCls m) (m ((c.tc : Thread nD τ).loc main_arg0)) (m ((c.tc : Thread nD τ).loc main_arg3)) (m ((c.tc : Thread nD τ).loc main_arg4)) := by
  refine Cert.Spec.ext_ix _ _ fun b tt o => ?_
  rw [Vf_v5_apply, pad_k, Cert.Spec.Gk_ix]

end Cert.KernelIdeal.Hand

end
-- ==== Proof.RefSide.lean ====
/-
  The reference read at an index.

  Its first result is the shared projection as the specification states it.  Its second gathers, for each batch row, the
  weight slab and the bias row of the row's class, multiplies, and adds the bias; a gather reads its start index signed and
  clamped into the table, so for a label y >= 0 the class is min(y, 999).
-/
import proofs.«173310_j25847113187695_2_alg».proof.Proof.Gen.ReferenceIdeal.Read
import proofs.«173310_j25847113187695_2_alg».proof.Proof.Spec
import Idealize.ShloMosaic.Lib.ValueIdx
import Idealize.ShloMosaic.Lib.Pipeline.Value
import Idealize.ShloMosaic.PureOps.Ideal.Laws

noncomputable section

namespace Cert.ReferenceIdeal.RefSide

open Cert.ReferenceIdeal Cert.ReferenceIdeal.Gen Cert.ReferenceIdeal.Read
open Idealize.ShloMosaic Idealize.ShloMosaic.ValueIdx

/-- The reference's first result is the shared projection. -/
theorem ref_j (x0 : (⟨S64x256x1152, .f32⟩ : BufTy).Contents (Elt Ideal)) (x2 : (⟨S32x1152, .f32⟩ : BufTy).Contents (Elt Ideal)) :
    val_main_v0 (F := Ideal) x0 x2 = Cert.Spec.Gj x0 x2 := by
  refine Cert.Spec.ext_ix _ _ fun b t o => ?_
  rw [val_main_v0_apply, Cert.Spec.Gj_ix]
  unfold Cert.Spec.gj
  refine Finset.sum_congr rfl fun h _ => ?_
  have el : lidx_main_v0 (ix3 b t o) h = ix3 b t h := funext fun a => Fin.ext (by
    match a with
    | ⟨0, _⟩ => rfl
    | ⟨1, _⟩ => rfl
    | ⟨2, _⟩ => rfl)
  have er : ridx_main_v0 (ix3 b t o) h = ix2 o h := funext fun a => Fin.ext (by
    match a with
    | ⟨0, _⟩ => rfl
    | ⟨1, _⟩ => rfl)
  rw [el, er]

/-! ## A row gather read at an index

On the class axis a gather adds nothing to its clamped start; on the axes it keeps, its start is 0 and the coordinate is the
result's own. -/

/-- The class a gather reads for a start index word: the word read signed, clamped into the table's 1000 classes. -/
def clampCls (w : BitVec 32) : Fin 1000 := ⟨min w.toInt.toNat 999, by omega⟩

theorem gW0 (idx : IVec S64x1 32) (b : Fin 64) (h : Fin 1152) (o : Fin 32) :
    gather_S1000x1152x32_S64x1_S64x1152x32_12_0_n_n_0_1_1115232.start (ix3 b h o) idx (0 : Fin S1000x1152x32.rank) + gather_S1000x1152x32_S64x1_S64x1152x32_12_0_n_n_0_1_1115232.batchCoord (ix3 b h o) (0 : Fin S1000x1152x32.rank) + gather_S1000x1152x32_S64x1_S64x1152x32_12_0_n_n_0_1_1115232.offCoord (ix3 b h o) (0 : Fin S1000x1152x32.rank)
      = min (idx (ix2 b (0 : Fin 1))).toInt.toNat 999 := by
  rw [GatherDims.batchCoord_eq_zero _ _ _ List.not_mem_nil,
    GatherDims.offCoord_eq_zero _ _ _ (fun hk => ((GatherDims.mem_sKept _ _).mp hk).1 (show (0 : Fin S1000x1152x32.rank) ∈ gather_S1000x1152x32_S64x1_S64x1152x32_12_0_n_n_0_1_1115232.collapsedSliceDims by decide)),
    Nat.add_zero]
  unfold GatherDims.start
  rw [dif_pos (show (0 : Fin S1000x1152x32.rank) ∈ gather_S1000x1152x32_S64x1_S64x1152x32_12_0_n_n_0_1_1115232.startIndexMap by decide)]
  have hsi : gather_S1000x1152x32_S64x1_S64x1152x32_12_0_n_n_0_1_1115232.siIdx (ix3 b h o) ⟨List.idxOf (0 : Fin S1000x1152x32.rank) gather_S1000x1152x32_S64x1_S64x1152x32_12_0_n_n_0_1_1115232.startIndexMap,
      List.idxOf_lt_length_iff.2 (show (0 : Fin S1000x1152x32.rank) ∈ gather_S1000x1152x32_S64x1_S64x1152x32_12_0_n_n_0_1_1115232.startIndexMap by decide)⟩ = ix2 b (0 : Fin 1) := by
    funext c; refine Fin.ext ?_
    match c with
    | ⟨0, _⟩ => rfl
    | ⟨1, _⟩ => rfl
  rw [hsi]
  rfl

theorem gW1 (idx : IVec S64x1 32) (b : Fin 64) (h : Fin 1152) (o : Fin 32) :
    gather_S1000x1152x32_S64x1_S64x1152x32_12_0_n_n_0_1_1115232.start (ix3 b h o) idx (1 : Fin S1000x1152x32.rank) + gather_S1000x1152x32_S64x1_S64x1152x32_12_0_n_n_0_1_1115232.batchCoord (ix3 b h o) (1 : Fin S1000x1152x32.rank) + gather_S1000x1152x32_S64x1_S64x1152x32_12_0_n_n_0_1_1115232.offCoord (ix3 b h o) (1 : Fin S1000x1152x32.rank) = h.val := by
  rw [GatherDims.batchCoord_eq_zero _ _ _ List.not_mem_nil, Nat.add_zero]
  unfold GatherDims.start
  rw [dif_neg (show ¬ (1 : Fin S1000x1152x32.rank) ∈ gather_S1000x1152x32_S64x1_S64x1152x32_12_0_n_n_0_1_1115232.startIndexMap by decide), Nat.zero_add]
  unfold GatherDims.offCoord
  rw [dif_pos (show (1 : Fin S1000x1152x32.rank) ∈ gather_S1000x1152x32_S64x1_S64x1152x32_12_0_n_n_0_1_1115232.sKept by decide)]
  rfl

theorem gW2 (idx : IVec S64x1 32) (b : Fin 64) (h : Fin 1152) (o : Fin 32) :
    gather_S1000x1152x32_S64x1_S64x1152x32_12_0_n_n_0_1_1115232.start (ix3 b h o) idx (2 : Fin S1000x1152x32.rank) + gather_S1000x1152x32_S64x1_S64x1152x32_12_0_n_n_0_1_1115232.batchCoord (ix3 b h o) (2 : Fin S1000x1152x32.rank) + gather_S1000x1152x32_S64x1_S64x1152x32_12_0_n_n_0_1_1115232.offCoord (ix3 b h o) (2 : Fin S1000x1152x32.rank) = o.val := by
  rw [GatherDims.batchCoord_eq_zero _ _ _ List.not_mem_nil, Nat.add_zero]
  unfold GatherDims.start
  rw [dif_neg (show ¬ (2 : Fin S1000x1152x32.rank) ∈ gather_S1000x1152x32_S64x1_S64x1152x32_12_0_n_n_0_1_1115232.startIndexMap by decide), Nat.zero_add]
  unfold GatherDims.offCoord
  rw [dif_pos (show (2 : Fin S1000x1152x32.rank) ∈ gather_S1000x1152x32_S64x1_S64x1152x32_12_0_n_n_0_1_1115232.sKept by decide)]
  rfl

/-- The weight gather at (b, h, o): class `clampCls` of batch row b's start index, the slab's entry (h, o). -/
theorem gatherW_apply (x : (⟨S1000x1152x32, .f32⟩ : BufTy).Contents (Elt Ideal)) (idx : IVec S64x1 32) (b : Fin 64) (h : Fin 1152) (o : Fin 32) :
    Host.gather gather_S1000x1152x32_S64x1_S64x1152x32_12_0_n_n_0_1_1115232 x idx (ix3 b h o) = x (ix3 (clampCls (idx (ix2 b (0 : Fin 1)))) h o) := by
  unfold Host.gather
  congr 1
  funext a
  refine Fin.ext ?_
  match a with
  | ⟨0, _⟩ => exact gW0 idx b h o
  | ⟨1, _⟩ => exact gW1 idx b h o
  | ⟨2, _⟩ => exact gW2 idx b h o

theorem gB0 (idx : IVec S64x1 32) (b : Fin 64) (o : Fin 32) :
    gather_S1000x32_S64x1_S64x32_1_0_n_n_0_1_132.start (ix2 b o) idx (0 : Fin S1000x32.rank) + gather_S1000x32_S64x1_S64x32_1_0_n_n_0_1_132.batchCoord (ix2 b o) (0 : Fin S1000x32.rank) + gather_S1000x32_S64x1_S64x32_1_0_n_n_0_1_132.offCoord (ix2 b o) (0 : Fin S1000x32.rank)
      = min (idx (ix2 b (0 : Fin 1))).toInt.toNat 999 := by
  rw [GatherDims.batchCoord_eq_zero _ _ _ List.not_mem_nil,
    GatherDims.offCoord_eq_zero _ _ _ (fun hk => ((GatherDims.mem_sKept _ _).mp hk).1 (show (0 : Fin S1000x32.rank) ∈ gather_S1000x32_S64x1_S64x32_1_0_n_n_0_1_132.collapsedSliceDims by decide)),
    Nat.add_zero]
  unfold GatherDims.start
  rw [dif_pos (show (0 : Fin S1000x32.rank) ∈ gather_S1000x32_S64x1_S64x32_1_0_n_n_0_1_132.startIndexMap by decide)]
  have hsi : gather_S1000x32_S64x1_S64x32_1_0_n_n_0_1_132.siIdx (ix2 b o) ⟨List.idxOf (0 : Fin S1000x32.rank) gather_S1000x32_S64x1_S64x32_1_0_n_n_0_1_132.startIndexMap,
      List.idxOf_lt_length_iff.2 (show (0 : Fin S1000x32.rank) ∈ gather_S1000x32_S64x1_S64x32_1_0_n_n_0_1_132.startIndexMap by decide)⟩ = ix2 b (0 : Fin 1) := by
    funext c; refine Fin.ext ?_
    match c with
    | ⟨0, _⟩ => rfl
    | ⟨1, _⟩ => rfl
  rw [hsi]
  rfl

theorem gB1 (idx : IVec S64x1 32) (b : Fin 64) (o : Fin 32) :
    gather_S1000x32_S64x1_S64x32_1_0_n_n_0_1_132.start (ix2 b o) idx (1 : Fin S1000x32.rank) + gather_S1000x32_S64x1_S64x32_1_0_n_n_0_1_132.batchCoord (ix2 b o) (1 : Fin S1000x32.rank) + gather_S1000x32_S64x1_S64x32_1_0_n_n_0_1_132.offCoord (ix2 b o) (1 : Fin S1000x32.rank) = o.val := by
  rw [GatherDims.batchCoord_eq_zero _ _ _ List.not_mem_nil, Nat.add_zero]
  unfold GatherDims.start
  rw [dif_neg (show ¬ (1 : Fin S1000x32.rank) ∈ gather_S1000x32_S64x1_S64x32_1_0_n_n_0_1_132.startIndexMap by decide), Nat.zero_add]
  unfold GatherDims.offCoord
  rw [dif_pos (show (1 : Fin S1000x32.rank) ∈ gather_S1000x32_S64x1_S64x32_1_0_n_n_0_1_132.sKept by decide)]
  rfl

/-- The bias gather at (b, o): class `clampCls` of batch row b's start index, the row's entry o. -/
theorem gatherB_apply (x : (⟨S1000x32, .f32⟩ : BufTy).Contents (Elt Ideal)) (idx : IVec S64x1 32) (b : Fin 64) (o : Fin 32) :
    Host.gather gather_S1000x32_S64x1_S64x32_1_0_n_n_0_1_132 x idx (ix2 b o) = x (ix2 (clampCls (idx (ix2 b (0 : Fin 1)))) o) := by
  unfold Host.gather
  congr 1
  funext a
  refine Fin.ext ?_
  match a with
  | ⟨0, _⟩ => exact gB0 idx b o
  | ⟨1, _⟩ => exact gB1 idx b o

/-! ## The second result -/

/-- The class the reference reads for batch row b: the label wrapped (a negative label has 1000 added) and then clamped
    into the table. Both gathers of the reference, of the weights and of the biases, compute this same class. -/
def refCls (x1 : (⟨S64, .i32⟩ : BufTy).Contents (Elt Ideal)) (b : Fin 64) : Fin 1000 :=
  clampCls (val_main_v5 (F := Ideal) x1 (ix1 b))

theorem v12_eq_v5 (x1 : (⟨S64, .i32⟩ : BufTy).Contents (Elt Ideal)) : val_main_v12 (F := Ideal) x1 = val_main_v5 (F := Ideal) x1 := rfl

/-- The reference's second result is the class-conditional projection at the classes it reads, whatever the labels. -/
theorem ref_k (x0 : (⟨S64x256x1152, .f32⟩ : BufTy).Contents (Elt Ideal)) (x1 : (⟨S64, .i32⟩ : BufTy).Contents (Elt Ideal))
    (x3 : (⟨S1000x1152x32, .f32⟩ : BufTy).Contents (Elt Ideal)) (x4 : (⟨S1000x32, .f32⟩ : BufTy).Contents (Elt Ideal)) :
    val_main_v18 (F := Ideal) x0 x1 x3 x4 = Cert.Spec.Gk (refCls x1) x0 x3 x4 := by
  refine Cert.Spec.ext_ix _ _ fun b t o => ?_
  rw [val_main_v18_apply, val_main_v16_apply, val_main_v17_apply, Cert.Spec.Gk_ix, Ideal.addf_def]
  unfold Cert.Spec.gk
  have e17 : idx_main_v17 (ix3 b t o) = ix3 b (0 : Fin 1) o := funext fun a => Fin.ext (by
    match a with
    | ⟨0, _⟩ => rfl
    | ⟨1, _⟩ => rfl
    | ⟨2, _⟩ => rfl)
  have e15 : idx_main_v15 (ix3 b (0 : Fin 1) o) = ix2 b o := funext fun a => Fin.ext (by
    match a with
    | ⟨0, _⟩ => rfl
    | ⟨1, _⟩ => rfl)
  have e6 : idx_main_v6 (ix2 b (0 : Fin 1)) = ix1 b := funext fun a => Fin.ext (by
    match a with
    | ⟨0, _⟩ => rfl)
  have e13 : idx_main_v13 (ix2 b (0 : Fin 1)) = ix1 b := funext fun a => Fin.ext (by
    match a with
    | ⟨0, _⟩ => rfl)
  rw [e17, val_main_v15_apply, e15]
  congr 1
  · refine Finset.sum_congr rfl fun h _ => ?_
    have el : lidx_main_v16 (ix3 b t o) h = ix3 b t h := funext fun a => Fin.ext (by
      match a with
      | ⟨0, _⟩ => rfl
      | ⟨1, _⟩ => rfl
      | ⟨2, _⟩ => rfl)
    have er : ridx_main_v16 (ix3 b t o) h = ix3 b h o := funext fun a => Fin.ext (by
      match a with
      | ⟨0, _⟩ => rfl
      | ⟨1, _⟩ => rfl
      | ⟨2, _⟩ => rfl)
    rw [el, er]
    unfold val_main_v7
    rw [gatherW_apply, val_main_v6_apply, e6]
    rfl
  · unfold val_main_v14
    rw [gatherB_apply, val_main_v13_apply, e13, v12_eq_v5]
    rfl

end Cert.ReferenceIdeal.RefSide

end
-- ==== Proof.PreY.lean ====
/-
  What the precondition says of the labels, and why that is enough.

  The precondition's last conjunct is that every label is non-negative.  For such a label y both programs read class
  min(y, 999): the kernel clamps y into [0, 999] before the launch, and the reference's gather reads its start index signed and
  clamped into the table after adding 1000 to a negative label, which a non-negative label is not.
-/
import proofs.«173310_j25847113187695_2_alg».proof.Pre_finite_inputs
import proofs.«173310_j25847113187695_2_alg».proof.Proof.Gen.Pre_finite_inputs
import Idealize.ShloMosaic.Lib.ReduceAll
import Idealize.ShloMosaic.Lib.ValueIdx

noncomputable section

namespace Cert.PreY

open Idealize.ShloMosaic Cert.Pre_finite_inputs

theorem bit_of_bool (b : Bool) : BitVec.ofBool b = 1#1 ↔ b = true := by cases b <;> decide
theorem and_bits : ∀ a b : BitVec 1, IntOp.andi a b = 1#1 ↔ a = 1#1 ∧ b = 1#1 := by decide

instance : Subsingleton S_.Idx := ⟨fun a b => funext fun d => d.elim0⟩

/-- Under the precondition every label is non-negative as a signed word. -/
theorem y_nonneg [Cert.Pre_finite_inputs.Facts] (a0 : FVec Ideal S64x256x1152 .f32) (a1 : IVec S64 32) (a2 : FVec Ideal S32x1152 .f32)
    (a3 : FVec Ideal S1000x1152x32 .f32) (a4 : FVec Ideal S1000x32 .f32)
    (h : fn (F := Ideal) a0 a1 a2 a3 a4 = fun _ => 1#1) (j : S64.Idx) : (0#32).sle (a1 j) = true := by
  have h0 := congrFun h ValueIdx.ix0
  unfold fn fn_part1 at h0
  have h1 := ((and_bits _ _).mp h0).2
  have h2 := Host.reduce_andi_all _ _ _ _ _ h1 j
  have h3 : BitVec.ofBool ((0#32).sle (a1 j)) = 1#1 := h2
  exact (bit_of_bool _).mp h3

/-- For a label that is non-negative as a signed word, the kernel's clamp and the reference's wrap-then-clamp are the same class. -/
theorem cls_agree (y : BitVec 32) (hy : (0#32).sle y = true) :
    (IntOp.minsi (999#32) (IntOp.maxsi (0#32) y)).toNat
      = min (Scalar.select (IntOp.cmpi .slt y (0#32)) (IntOp.addi y (1000#32)) y).toInt.toNat 999 := by
  have h00 : (0#32).toInt = 0 := by decide
  have h999 : (999#32).toInt = 999 := by decide
  simp only [BitVec.sle, decide_eq_true_eq, h00] at hy
  have hc := BitVec.toInt_eq_toNat_cond y
  have hlt := y.isLt
  have hyn : y.toInt = y.toNat := by split at hc <;> omega
  have hs0 : y.slt (0#32) = false := by
    simp only [BitVec.slt, h00, decide_eq_false_iff_not]; omega
  have hsel : Scalar.select (IntOp.cmpi .slt y (0#32)) (IntOp.addi y (1000#32)) y = y := by
    unfold IntOp.cmpi
    rw [hs0]
    exact ValueIdx.select_zero _ _
  rw [hsel, hyn]
  unfold IntOp.minsi IntOp.maxsi
  rw [hs0]
  simp only [Bool.false_eq_true, if_false]
  by_cases h1 : (999#32).slt y = true
  · rw [if_pos h1]
    simp only [BitVec.slt, decide_eq_true_eq, h999] at h1
    show 999 = min (Int.toNat (y.toNat : Int)) 999
    omega
  · rw [if_neg h1]
    simp only [BitVec.slt, decide_eq_true_eq, h999] at h1
    show y.toNat = min (Int.toNat (y.toNat : Int)) 999
    omega

end Cert.PreY

end
-- ==== Proof.Bridge.lean ====
/-
  Both programs read the same class for every batch row whose label is non-negative.

  The kernel's table entry for batch row b is min(999, max(0, y b)).  The reference adds 1000 to a negative label and then gathers,
  and a gather reads its start index signed and clamped into the table's 1000 classes.  For a non-negative label both are min(y b, 999).
-/
import proofs.«173310_j25847113187695_2_alg».proof.Proof.KiVal
import proofs.«173310_j25847113187695_2_alg».proof.Proof.RefSide
import proofs.«173310_j25847113187695_2_alg».proof.Proof.PreY

set_option maxRecDepth 16384

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

/-- The table's entry for batch row b is the label clamped into [0, 999]. -/
theorem tbl_apply (b : Fin 64) :
    (Cert.KernelIdeal.Hand.tbl m 0 : Cert.KernelIdeal.S64.Idx → BitVec 32) (ix1 b)
      = IntOp.minsi (999#32) (IntOp.maxsi (0#32) ((m (((0 : Dev Cert.KernelIdeal.nD).tc : Thread Cert.KernelIdeal.nD Cert.KernelIdeal.τ).loc Cert.KernelIdeal.main_arg1) : Cert.KernelIdeal.S64.Idx → BitVec 32) (ix1 b))) :=
  congrFun (Cert.KernelIdeal.Hand.V_tbl m 0) (ix1 b)

/-- The reference's wrapped label, written out: a negative label has 1000 added. -/
theorem wrapped (x1 : (⟨Cert.ReferenceIdeal.S64, .i32⟩ : BufTy).Contents (Elt Ideal)) (j : Cert.ReferenceIdeal.S64.Idx) :
    Cert.ReferenceIdeal.Read.val_main_v5 (F := Ideal) x1 j = Scalar.select (IntOp.cmpi .slt (x1 j) (0#32)) (IntOp.addi (x1 j) (1000#32)) (x1 j) := rfl

/-- For non-negative labels the class the kernel's table names is the class the reference gathers. -/
theorem cls_eq (hy : ∀ j : Cert.KernelIdeal.S64.Idx, (0#32).sle ((m (((0 : Dev Cert.KernelIdeal.nD).tc : Thread Cert.KernelIdeal.nD Cert.KernelIdeal.τ).loc Cert.KernelIdeal.main_arg1) : Cert.KernelIdeal.S64.Idx → BitVec 32) j) = true) (b : Fin 64) :
    Cert.KernelIdeal.Hand.kerCls m b = Cert.ReferenceIdeal.RefSide.refCls (m (((0 : Dev Cert.KernelIdeal.nD).tc : Thread Cert.KernelIdeal.nD Cert.KernelIdeal.τ).loc Cert.KernelIdeal.main_arg1)) b := by
  refine Fin.ext ?_
  show ((Cert.KernelIdeal.Hand.tbl m 0 : Cert.KernelIdeal.S64.Idx → BitVec 32) (ix1 b)).toNat
    = min (Cert.ReferenceIdeal.Read.val_main_v5 (F := Ideal) (m (((0 : Dev Cert.KernelIdeal.nD).tc : Thread Cert.KernelIdeal.nD Cert.KernelIdeal.τ).loc Cert.KernelIdeal.main_arg1)) (ix1 b)).toInt.toNat 999
  rw [tbl_apply, wrapped]
  exact Cert.PreY.cls_agree _ (hy _)

end Cert.Bridge

end
-- ==== Proof.lean ====
/-
  The kernel and the reference compute the same two projections.

  Both results have shape [64, 256, 32].  For batch row b and token t, channel o of the first is the activations' row (b, t) against
  row o of the shared weight, summed over the 1152 hidden channels; channel o of the second is the same row against column o of a
  weight slab chosen by the row's class label, plus the class's bias entry.  The reference does this with two gathers and two
  contractions over the whole batch.  The kernel clamps the labels into [0, 999], hands them to a grid of 32 points as a table that
  positions the class windows, and at each point multiplies two batch rows by a [1152, 64] matrix made of the shared weight beside
  the row's class slab, adds a bias row that is zero on the shared half, and writes a 128-lane row whose upper half is padding; two
  slices then cut the results out.

  At the ideal values the two agree index by index, the zero the kernel adds to the shared half changing nothing, as soon as both
  read the same class for each batch row.  They do for every non-negative label: the reference's gather clamps its start index into
  the table, so both read class min(y, 999).  For a label strictly between -1000 and 0 the reference wraps it to y + 1000 while the
  kernel clamps it to 0, which is why the precondition asks the labels to be non-negative.  That the float inputs are finite is
  never used.

  The three frames hold of every launch memory; the kernel's because the clamp keeps every class window inside its table whatever
  the labels are.  The kernel as printed and its idealization have the same text, so nothing is owed for the idealization.
-/
import proofs.«173310_j25847113187695_2_alg».proof.Defs
import proofs.«173310_j25847113187695_2_alg».proof.Proof.Gen.Kernel
import proofs.«173310_j25847113187695_2_alg».proof.Proof.Gen.KernelIdeal
import proofs.«173310_j25847113187695_2_alg».proof.Proof.Gen.ReferenceIdeal
import proofs.«173310_j25847113187695_2_alg».proof.Proof.Gen.Pre_finite_inputs
import proofs.«173310_j25847113187695_2_alg».proof.Proof.Gen.ReferenceIdeal.Run
import proofs.«173310_j25847113187695_2_alg».proof.Proof.Gen.ReferenceIdeal.Read
import proofs.«173310_j25847113187695_2_alg».proof.Proof.KbLaunch
import proofs.«173310_j25847113187695_2_alg».proof.Proof.KiLaunch
import proofs.«173310_j25847113187695_2_alg».proof.Proof.KiVal
import proofs.«173310_j25847113187695_2_alg».proof.Proof.RefSide
import proofs.«173310_j25847113187695_2_alg».proof.Proof.PreY
import proofs.«173310_j25847113187695_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The kernel as printed runs to the end, faults nowhere, and leaves its arguments as launched. -/
theorem frame_K : Cert.frame_Kernel := fun m ρ _ => Cert.Kernel.Hand.frame m ρ

/-- So does its idealization. -/
theorem frame_KI : Cert.frame_KernelIdeal := fun m ρ _ => Cert.KernelIdeal.Hand.frame m ρ

/-- So does the reference: its run with the results dropped. -/
theorem frame_R : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments, with non-negative labels, both programs end with the shared projection and the
    class-conditional projection of the arguments. -/
theorem algebraic : Cert.algebraic_KernelIdeal_ReferenceIdeal := by
  intro m ρ m' ρ' hpre hagree
  refine ⟨fun c => Cert.Spec.Gj (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.Spec.Gk (Cert.KernelIdeal.Hand.kerCls m) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Hand.Vf_v4_eq m c), (h c).2.1.trans (Cert.KernelIdeal.Hand.Vf_v5_eq m c), (h c).2.2⟩)
      (Cert.KernelIdeal.Hand.run_main m ρ)
  · refine (θ_run Cert.ReferenceIdeal.defs _ _).mono (fun r h c => ?_) (Cert.ReferenceIdeal.Value.run (F := Ideal) m' ρ')
    obtain rfl : c = 0 := Subsingleton.elim _ _
    have hy : ∀ j : Cert.KernelIdeal.S64.Idx, (0#32).sle ((m (((0 : Dev Cert.KernelIdeal.nD).tc : Thread Cert.KernelIdeal.nD Cert.KernelIdeal.τ).loc Cert.KernelIdeal.main_arg1) : Cert.KernelIdeal.S64.Idx → BitVec 32) j) = true :=
      fun j => Cert.PreY.y_nonneg _ _ _ _ _ (hpre 0) j
    have hcls : Cert.ReferenceIdeal.RefSide.refCls (m (((0 : Dev Cert.KernelIdeal.nD).tc : Thread Cert.KernelIdeal.nD Cert.KernelIdeal.τ).loc Cert.KernelIdeal.main_arg1)) = Cert.KernelIdeal.Hand.kerCls m :=
      funext fun b => (Cert.Bridge.cls_eq m hy b).symm
    obtain ⟨e0, e1, e2, e3, e4⟩ := hagree 0
    refine ⟨?_, ?_, (h 0).2.2⟩
    · rw [(h 0).1, Cert.ReferenceIdeal.Read.val_main_v0_eq, Cert.ReferenceIdeal.RefSide.ref_j, e0, e2]
    · rw [(h 0).2.1, Cert.ReferenceIdeal.Read.val_main_v18_eq, Cert.ReferenceIdeal.RefSide.ref_k, e0, e1, e3, e4, hcls]

/-- The claim: the programs' stated facts hold, the three programs run and keep their arguments, and the two idealized programs end
    with equal results. -/
theorem claim : Cert.Claim :=
  ⟨Cert.Kernel.Gen.facts, Cert.KernelIdeal.Gen.facts, Cert.ReferenceIdeal.Gen.facts, Cert.Pre_finite_inputs.Gen.facts,
    frame_K, frame_KI, frame_R, preserves, algebraic⟩

end Cert.Proof

end
